-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S256 .f32) (main_arg9 : FVec F S256x64 .f32) (main_arg10 : FVec F S64 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256 .f32) (main_arg9 : FVec F S256x64 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : IVec S2x800000 32) (main_arg2 : FVec F S800000 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x64 .f32) (main_arg10 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S_ : Shape := ⟨0, ![]⟩
abbrev S100000 : Shape := ⟨1, ![100000]⟩
abbrev S800000x1 : Shape := ⟨2, ![800000, 1]⟩
abbrev S10000x256 : Shape := ⟨2, ![10000, 256]⟩
abbrev S1x256 : Shape := ⟨2, ![1, 256]⟩
abbrev S800000x256 : Shape := ⟨2, ![800000, 256]⟩
abbrev S100000x1 : Shape := ⟨2, ![100000, 1]⟩
abbrev S100000x64 : Shape := ⟨2, ![100000, 64]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 89
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S800000, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S800000x1, .i32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x256, .f32⟩
  | .hbm, ⟨47, _⟩ => ⟨S800000x1, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S800000x256, .f32⟩
  | .hbm, ⟨58, _⟩ => ⟨S800000x256, .f32⟩
  | .hbm, ⟨59, _⟩ => ⟨S_, .f32⟩
  | .hbm, ⟨60, _⟩ => ⟨S100000x256, .f32⟩
  | .hbm, ⟨61, _⟩ => ⟨S800000x1, .i32⟩
  | .hbm, ⟨62, _⟩ => ⟨S100000x256, .f32⟩
  | .hbm, ⟨63, _⟩ => ⟨S100000x1, .f32⟩
  | .hbm, ⟨64, _⟩ => ⟨S100000x256, .f32⟩
  | .hbm, ⟨65, _⟩ => ⟨S100000x256, .f32⟩
  | .hbm, ⟨66, _⟩ => ⟨S100000x256, .f32⟩
  | .hbm, ⟨67, _⟩ => ⟨S100000x256, .f32⟩
  | .hbm, ⟨68, _⟩ => ⟨S800000x1, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x256, .f32⟩
  | .hbm, ⟨78, _⟩ => ⟨S800000x256, .f32⟩
  | .hbm, ⟨79, _⟩ => ⟨S800000x256, .f32⟩
  | .hbm, ⟨80, _⟩ => ⟨S_, .f32⟩
  | .hbm, ⟨81, _⟩ => ⟨S100000x256, .f32⟩
  | .hbm, ⟨82, _⟩ => ⟨S800000x1, .i32⟩
  | .hbm, ⟨83, _⟩ => ⟨S100000x256, .f32⟩
  | .hbm, ⟨84, _⟩ => ⟨S100000x1, .f32⟩
  | .hbm, ⟨85, _⟩ => ⟨S100000x256, .f32⟩
  | .hbm, ⟨86, _⟩ => ⟨S100000x256, .f32⟩
  | .hbm, ⟨87, _⟩ => ⟨S100000x256, .f32⟩
  | .hbm, ⟨88, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S10000x256, .f32⟩
  | .local _ .vmem, ⟨6, _⟩ => ⟨S10000x256, .f32⟩
  | .local _ .vmem, ⟨7, _⟩ => ⟨S10000x256, .f32⟩
  | .local _ .vmem, ⟨8, _⟩ => ⟨S10000x256, .f32⟩
  | .local _ .vmem, ⟨9, _⟩ => ⟨S256, .f32⟩
  | .local _ .vmem, ⟨10, _⟩ => ⟨S256x256, .f32⟩
  | .local _ .vmem, ⟨11, _⟩ => ⟨S10000x256, .f32⟩
  | .local _ .vmem, ⟨12, _⟩ => ⟨S10000x256, .f32⟩
  | .local _ .vmem, ⟨13, _⟩ => ⟨S10000x256, .f32⟩
  | .local _ .vmem, ⟨14, _⟩ => ⟨S10000x256, .f32⟩
  | .local _ .vmem, ⟨15, _⟩ => ⟨S256, .f32⟩
  | .local _ .vmem, ⟨16, _⟩ => ⟨S256x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S800000_S800000x1_0 : S800000.BroadcastsInDim S800000x1 (![0] : Fin 1 → Fin S800000x1.rank)
  bcast_S_S800000 : S_.BroadcastsInDim S800000 (![] : Fin 0 → Fin S800000.rank)
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S10000x256 : S1x256.Broadcasts S10000x256
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  shapeCasts_S10000x256_S10000x256 : S10000x256.ShapeCasts S10000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S10000x256_S256x256_S10000x256_1_0_0_1_n_n_wf : DotDims.WF S10000x256 S256x256 S10000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S10000x256_S256x64_S10000x64_1_0_0_1_n_n_wf : DotDims.WF S10000x256 S256x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x256.size a ≤ S100000x256.size a
  hwx0_4 : ∀ i : grid0.Coords, EltTy.bits .f32 = 32 ∨ (Rect.block (s := S100000x256) S10000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S100000x256.size a
  hwx1_0 : ∀ i : grid1.Coords, EltTy.bits .f32 = 32 ∨ (Rect.block (s := S100000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x256.size a ≤ S100000x256.size a
  hwx1_3 : ∀ i : grid1.Coords, EltTy.bits .f32 = 32 ∨ (Rect.block (s := S100000x256) S10000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S100000x256.size a
  hwx2_0 : ∀ i : grid2.Coords, EltTy.bits .f32 = 32 ∨ (Rect.block (s := S100000x256) S10000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S10000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S1x256 : Shape := ⟨2, ![1, 256]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S100000x256, .f32⟩
  | 1 => ⟨S2x800000, .i32⟩
  | 2 => ⟨S800000, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S100000x256, .f32⟩
  | 16 => ⟨S1x256, .f32⟩
  | 17 => ⟨S100000x256, .f32⟩
  | 18 => ⟨S100000x256, .f32⟩
  | 19 => ⟨S_, .f32⟩
  | 20 => ⟨S100000x256, .f32⟩
  | 21 => ⟨S100000x256, .f32⟩
  | 22 => ⟨S100000x256, .f32⟩
  | 23 => ⟨S_, .f32⟩
  | 24 => ⟨S100000, .f32⟩
  | 25 => ⟨S_, .f32⟩
  | 26 => ⟨S100000, .f32⟩
  | 27 => ⟨S800000x1, .i32⟩
  | 28 => ⟨S100000, .f32⟩
  | 29 => ⟨S100000, .f32⟩
  | 30 => ⟨S100000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x256, .f32⟩
  | 61 => ⟨S800000x256, .f32⟩
  | 62 => ⟨S800000x256, .f32⟩
  | 63 => ⟨S_, .f32⟩
  | 64 => ⟨S100000x256, .f32⟩
  | 65 => ⟨S800000x1, .i32⟩
  | 66 => ⟨S100000x256, .f32⟩
  | 67 => ⟨S_, .f32⟩
  | 68 => ⟨S100000, .f32⟩
  | 69 => ⟨S100000, .f32⟩
  | 70 => ⟨S100000x1, .f32⟩
  | 71 => ⟨S100000x256, .f32⟩
  | 72 => ⟨S100000x256, .f32⟩
  | 73 => ⟨S100000x256, .f32⟩
  | 74 => ⟨S1x256, .f32⟩
  | 75 => ⟨S100000x256, .f32⟩
  | 76 => ⟨S100000x256, .f32⟩
  | 77 => ⟨S_, .f32⟩
  | 78 => ⟨S100000x256, .f32⟩
  | 79 => ⟨S100000x256, .f32⟩
  | 80 => ⟨S100000x256, .f32⟩
  | 81 => ⟨S_, .f32⟩
  | 82 => ⟨S100000, .f32⟩
  | 83 => ⟨S_, .f32⟩
  | 84 => ⟨S100000, .f32⟩
  | 85 => ⟨S800000x1, .i32⟩
  | 86 => ⟨S100000, .f32⟩
  | 87 => ⟨S100000, .f32⟩
  | 88 => ⟨S100000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S800000, .f32⟩
  | 109 => ⟨S800000x1, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x256, .f32⟩
  | 119 => ⟨S800000x256, .f32⟩
  | 120 => ⟨S800000x256, .f32⟩
  | 121 => ⟨S_, .f32⟩
  | 122 => ⟨S100000x256, .f32⟩
  | 123 => ⟨S800000x1, .i32⟩
  | 124 => ⟨S100000x256, .f32⟩
  | 125 => ⟨S_, .f32⟩
  | 126 => ⟨S100000, .f32⟩
  | 127 => ⟨S100000, .f32⟩
  | _ => ⟨S100000x256, .f32⟩

abbrev hbmTy0_1 (i : Nat) : BufTy := match i % 128 with
  | 0 => ⟨S100000x1, .f32⟩
  | 1 => ⟨S100000x256, .f32⟩
  | 2 => ⟨S100000x256, .f32⟩
  | 3 => ⟨S100000x256, .f32⟩
  | 4 => ⟨S1x256, .f32⟩
  | 5 => ⟨S100000x256, .f32⟩
  | 6 => ⟨S100000x256, .f32⟩
  | 7 => ⟨S_, .f32⟩
  | 8 => ⟨S100000x256, .f32⟩
  | 9 => ⟨S100000x256, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x64, .f32⟩
  | 21 => ⟨S100000x64, .f32⟩
  | 22 => ⟨S100000x64, .f32⟩
  | 23 => ⟨S_, .f32⟩
  | 24 => ⟨S100000, .f32⟩
  | 25 => ⟨S100000x1, .f32⟩
  | 26 => ⟨S100000x1, .f32⟩
  | 27 => ⟨S100000x64, .f32⟩
  | 28 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_12 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_14 : Ref sig .tc := ⟨.hbm, 110, rfl⟩
abbrev main_v79 : Ref sig .tc := ⟨.hbm, 111, rfl⟩
abbrev main_v80 : Ref sig .tc := ⟨.hbm, 112, rfl⟩
abbrev main_c_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_call2_cst : Ref sig .tc := ⟨.hbm, 135, rfl⟩
abbrev main_call2_v0 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call3_cst : Ref sig .tc := ⟨.hbm, 142, rfl⟩
abbrev main_call3_v0 : Ref sig .tc := ⟨.hbm, 143, rfl⟩
abbrev main_call3_cst_0 : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_v6 : Ref sig .tc := ⟨.hbm, 150, rfl⟩
abbrev main_call3_cst_1 : Ref sig .tc := ⟨.hbm, 151, rfl⟩
abbrev main_call3_v7 : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_v105 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  dot_S100000x256_S256x256_S100000x256_1_0_0_1_n_n_wf : DotDims.WF S100000x256 S256x256 S100000x256 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x64_S100000x64_1_0_0_1_n_n_wf : DotDims.WF S100000x256 S256x64 S100000x64 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KernelRun.lean ====
/-
  The kernel program's run with its result named.

  Every weakly fair execution of the program's main function terminates, without a fault, and in every final state the
  result array holds what the last of the three pipelined regions leaves in it — the last boundary's contents read at the
  result's buffer — while every argument array is as launched. The run is the launch of the program's six segments
  (three stretches of host operations, three regions) one after another; the final state is read back buffer by buffer.
-/
import proofs.«135534_j85761906966870_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments unchanged. -/
theorem run_out : θ_run defs (onTc (τ := τ) (main (F := F))) ⟨m, fun _ => 0, ρ⟩ (fun r => ∀ c : Dev nD,
      r.2.mem ((c.tc : Thread nD τ).loc main_v64) = W6 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v64 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowSoftmax.lean ====
/-
  Row-wise log-softmax on the extended reals, over rank-2 arrays of any extents.

  `rowMax L p` is the largest entry of row `p`, folded from −∞; `lsm L` subtracts from every entry of a row the
  row's largest entry and then the logarithm of the sum over the row of the exponentials of the shifted entries:
  `lsm L (p, q) = (L(p,q) − max_p) − log Σ_k exp (L(p,k) − max_p)`. Row `p` of `lsm L` depends on row `p` of `L` only.
  Two programs' spellings of it are this one function: the vector unit's (a lane reduction with the maximum and one with
  the sum, each result cast to a column and the column broadcast along the row) and the host's (a reduction over the
  second axis from a scalar −∞, a further maximum with −∞, a reduction with a sum from a scalar zero, each result
  broadcast to a column and then along the row).
-/
import Idealize.ShloMosaic.PureOps.Ideal.Laws
import Idealize.ShloMosaic.Lib.ValueIdx
import Idealize.ShloMosaic.Lib.ValueLayout
import Idealize.ShloMosaic.Lib.Pipeline.Value
import proofs.«135534_j85761906966870_2_alg».proof.Proof.LibDense
import proofs.«135534_j85761906966870_2_alg».proof.Proof.LibRowBlocks

noncomputable section

open scoped BigOperators

namespace Cert.RowSoftmax

open Idealize.ShloMosaic Idealize.ShloMosaic.ValueIdx Cert.Dense Cert.RowBlocks

/-- The largest entry of row `p`, folded from −∞. -/
def rowMax {M N : ℕ} (L : Mat M N) (p : Fin M) : EReal :=
  (Finset.univ : Finset (Fin N)).fold max (Ideal.ofBits .f32 0xFF800000#32) (fun k => L (ix2 p k))

/-- Row-wise log-softmax. -/
def lsm {M N : ℕ} (L : Mat M N) : Mat M N := fun i =>
  (L i - rowMax L (c0 i)) - Ideal.log (∑ k : Fin N, Ideal.exp (L (ix2 (c0 i) k) - rowMax L (c0 i)))

theorem lsm_apply {M N : ℕ} (L : Mat M N) (p : Fin M) (q : Fin N) :
    lsm L (ix2 p q) = (L (ix2 p q) - rowMax L p) - Ideal.log (∑ k : Fin N, Ideal.exp (L (ix2 p k) - rowMax L p)) := rfl

/-- A row's largest entry depends on that row only. -/
theorem rowMax_rows {M M' N : ℕ} (L : Mat M N) (L' : Mat M' N) (p : Fin M) (p' : Fin M')
    (h : ∀ k, L' (ix2 p' k) = L (ix2 p k)) : rowMax L' p' = rowMax L p := by
  unfold rowMax
  exact congrArg (fun f => Finset.fold max (Ideal.ofBits .f32 0xFF800000#32) f (Finset.univ : Finset (Fin N))) (funext h)

/-- A row of the log-softmax depends on that row only. -/
theorem lsm_rows {M M' N : ℕ} (L : Mat M N) (L' : Mat M' N) (p : Fin M) (p' : Fin M')
    (h : ∀ k, L' (ix2 p' k) = L (ix2 p k)) (q : Fin N) : lsm L' (ix2 p' q) = lsm L (ix2 p q) := by
  simp only [lsm_apply, rowMax_rows L L' p p' h, h]

/-- −∞ is neutral for the maximum. -/
theorem max_negInf (y : EReal) : max (Ideal.ofBits .f32 0xFF800000#32) y = y := by
  simp [Ideal.ofBits, Ideal.ieee]

/-- The vector unit's lane maximum of a row, from −∞. -/
theorem vecRowMax {M N : ℕ} (L : FVec Ideal ⟨2, ![M, N]⟩ .f32)
    (hred : (⟨2, ![M, N]⟩ : Shape).Reduces [1] ⟨1, ![M]⟩) (hφ : FKind.Formats .f32)
    (hmax : (0xFF800000#32 : BitVec 32) = FKind.maximumf.neutral .f32 hφ) (p : Fin M) :
    multiReduction .maximumf [1] ⟨1, ![M]⟩ L 0xFF800000#32 hred hφ hmax (ix1 p) = rowMax L p := by
  refine (Ideal.multiReduction_maximumf_single L 0xFF800000#32 hred hφ hmax (ix1 p)).trans ?_
  unfold rowMax
  refine congrArg (fun f => Finset.fold max (Ideal.ofBits .f32 0xFF800000#32) f (Finset.univ : Finset (Fin N))) ?_
  funext k
  refine congrArg L (funext fun ax => Fin.ext ?_)
  match ax with
  | ⟨0, _⟩ => rfl
  | ⟨1, _⟩ => rfl

/-- A per-row value cast to a column and broadcast along the row reads, at `(p, q)`, the value of row `p`. -/
theorem vecColBcast {M N : ℕ} (v : (⟨1, ![M]⟩ : Shape).Idx → EReal)
    (hsc : (⟨1, ![M]⟩ : Shape).ShapeCasts ⟨2, ![M, 1]⟩) (hb : (⟨2, ![M, 1]⟩ : Shape).Broadcasts ⟨2, ![M, N]⟩)
    (p : Fin M) (q : Fin N) :
    broadcastTo ⟨2, ![M, N]⟩ (shapeCast ⟨2, ![M, 1]⟩ v hsc) hb (ix2 p q) = v (ix1 p) := by
  rw [broadcastTo_col_apply, shapeCast_col_apply]

/-- The vector unit's form of the row-wise log-softmax. -/
theorem vecLogSoftmax {M N : ℕ} (L : FVec Ideal ⟨2, ![M, N]⟩ .f32)
    (hred : (⟨2, ![M, N]⟩ : Shape).Reduces [1] ⟨1, ![M]⟩) (hφ : FKind.Formats .f32)
    (hmax : (0xFF800000#32 : BitVec 32) = FKind.maximumf.neutral .f32 hφ)
    (hadd : (0x00000000#32 : BitVec 32) = 0x00000000#32)
    (hsc : (⟨1, ![M]⟩ : Shape).ShapeCasts ⟨2, ![M, 1]⟩) (hb : (⟨2, ![M, 1]⟩ : Shape).Broadcasts ⟨2, ![M, N]⟩) :
    subf (subf L (broadcastTo ⟨2, ![M, N]⟩ (shapeCast ⟨2, ![M, 1]⟩
          (multiReduction .maximumf [1] ⟨1, ![M]⟩ L 0xFF800000#32 hred hφ hmax) hsc) hb))
      (broadcastTo ⟨2, ![M, N]⟩ (log (shapeCast ⟨2, ![M, 1]⟩
          (multiReduction .add [1] ⟨1, ![M]⟩
            (exp (subf L (broadcastTo ⟨2, ![M, N]⟩ (shapeCast ⟨2, ![M, 1]⟩
              (multiReduction .maximumf [1] ⟨1, ![M]⟩ L 0xFF800000#32 hred hφ hmax) hsc) hb)))
            0x00000000#32 hred hφ hadd) hsc)) hb)
      = lsm L := by
  funext i
  obtain ⟨p, q, rfl⟩ : ∃ (p : Fin M) (q : Fin N), i = ix2 p q := ⟨i 0, i 1, eq_ix2 i⟩
  have hsh : ∀ q' : Fin N, subf L (broadcastTo ⟨2, ![M, N]⟩ (shapeCast ⟨2, ![M, 1]⟩
      (multiReduction .maximumf [1] ⟨1, ![M]⟩ L 0xFF800000#32 hred hφ hmax) hsc) hb) (ix2 p q')
      = L (ix2 p q') - rowMax L p := fun q' => by
    show L (ix2 p q') - broadcastTo ⟨2, ![M, N]⟩ (shapeCast ⟨2, ![M, 1]⟩
      (multiReduction .maximumf [1] ⟨1, ![M]⟩ L 0xFF800000#32 hred hφ hmax) hsc) hb (ix2 p q') = _
    rw [vecColBcast, vecRowMax]
  show subf L _ (ix2 p q) - broadcastTo ⟨2, ![M, N]⟩ (log (shapeCast ⟨2, ![M, 1]⟩ _ hsc)) hb (ix2 p q) = _
  rw [hsh q, broadcastTo_col_apply]
  show _ - Ideal.log (shapeCast ⟨2, ![M, 1]⟩ _ hsc (ix2 p (0 : Fin 1))) = _
  rw [shapeCast_col_apply, rowSum_apply, lsm_apply]
  refine congrArg (fun s => (L (ix2 p q) - rowMax L p) - Ideal.log s) (Finset.sum_congr rfl fun k _ => ?_)
  show Ideal.exp (subf L _ (ix2 p k)) = _
  rw [hsh k]

/-- The host's maximum of a row: a reduction over the second axis from a scalar −∞. -/
theorem hostRowMax {M N : ℕ} (L : FVec Ideal ⟨2, ![M, N]⟩ .f32)
    (h' : (⟨2, ![M, N]⟩ : Shape).ReducesTo [1] ⟨1, ![M]⟩) (hred : (⟨2, ![M, N]⟩ : Shape).Reduces [1] ⟨1, ![M]⟩)
    (hu : 0 < (⟨0, ![]⟩ : Shape).numel) (p : Fin M) :
    Host.reduce FloatOps.maximumf L (constant (F := Ideal) ⟨0, ![]⟩ .f32 0xFF800000#32) h' hu (ix1 p) = rowMax L p := by
  rw [Host.reduce_eq_fold_single FloatOps.maximumf L _ h' hred hu]
  unfold rowMax
  refine congrArg (fun f => Finset.fold max (Ideal.ofBits .f32 0xFF800000#32) f (Finset.univ : Finset (Fin N))) ?_
  funext k
  refine congrArg L (funext fun ax => Fin.ext ?_)
  match ax with
  | ⟨0, _⟩ => rfl
  | ⟨1, _⟩ => rfl

/-- A per-row value broadcast to a column and then along the row (the host's two broadcasts) reads, at `(p, q)`, the
    value of row `p`. -/
theorem hostColBcast {M N : ℕ} (v : (⟨1, ![M]⟩ : Shape).Idx → EReal)
    (hb1 : (⟨1, ![M]⟩ : Shape).BroadcastsInDim ⟨2, ![M, 1]⟩ ![0])
    (hb2 : (⟨2, ![M, 1]⟩ : Shape).BroadcastsInDim ⟨2, ![M, N]⟩ ![0, 1]) (p : Fin M) (q : Fin N) :
    broadcastInDim ⟨2, ![M, N]⟩ ![0, 1] hb2 (broadcastInDim ⟨2, ![M, 1]⟩ ![0] hb1 v) (ix2 p q) = v (ix1 p) := by
  rw [broadcastInDim_apply ![0, 1] hb2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] hb1 v (ix2 p (0 : Fin 1)) (ix1 p) (fun a => by
        match a with
        | ⟨0, _⟩ =>
          show p.val = if M = 1 then 0 else p.val
          split
          · have := p.isLt; omega
          · rfl)]

/-- A per-row value subtracted from every entry of its row, in the host's spelling. -/
theorem hostShift_apply {M N : ℕ} (L : FVec Ideal ⟨2, ![M, N]⟩ .f32) (v : FVec Ideal ⟨1, ![M]⟩ .f32)
    (hb1 : (⟨1, ![M]⟩ : Shape).BroadcastsInDim ⟨2, ![M, 1]⟩ ![0])
    (hb2 : (⟨2, ![M, 1]⟩ : Shape).BroadcastsInDim ⟨2, ![M, N]⟩ ![0, 1]) (p : Fin M) (q : Fin N) :
    subf L (broadcastInDim ⟨2, ![M, N]⟩ ![0, 1] hb2 (broadcastInDim ⟨2, ![M, 1]⟩ ![0] hb1 v)) (ix2 p q)
      = L (ix2 p q) - v (ix1 p) := by
  show L (ix2 p q) - broadcastInDim ⟨2, ![M, N]⟩ ![0, 1] hb2 (broadcastInDim ⟨2, ![M, 1]⟩ ![0] hb1 v) (ix2 p q) = L (ix2 p q) - v (ix1 p)
  rw [hostColBcast]

/-- The logarithm of a per-row value, taken on the column and broadcast along the row, in the host's spelling. -/
theorem hostLogCol_apply {M N : ℕ} (s : FVec Ideal ⟨1, ![M]⟩ .f32)
    (hb1 : (⟨1, ![M]⟩ : Shape).BroadcastsInDim ⟨2, ![M, 1]⟩ ![0])
    (hb2 : (⟨2, ![M, 1]⟩ : Shape).BroadcastsInDim ⟨2, ![M, N]⟩ ![0, 1]) (p : Fin M) (q : Fin N) :
    broadcastInDim ⟨2, ![M, N]⟩ ![0, 1] hb2 (Host.log (broadcastInDim ⟨2, ![M, 1]⟩ ![0] hb1 s)) (ix2 p q)
      = Ideal.log (s (ix1 p)) := by
  rw [broadcastInDim_apply ![0, 1] hb2 (Host.log (broadcastInDim ⟨2, ![M, 1]⟩ ![0] hb1 s)) (ix2 p q) (ix2 p (0 : Fin 1)) (fun a => by
        match a with
        | ⟨0, _⟩ =>
          show p.val = if M = 1 then 0 else p.val
          split
          · have := p.isLt; omega
          · rfl
        | ⟨1, _⟩ => rfl)]
  show Ideal.log (broadcastInDim ⟨2, ![M, 1]⟩ ![0] hb1 s (ix2 p (0 : Fin 1))) = Ideal.log (s (ix1 p))
  rw [broadcastInDim_apply ![0] hb1 s (ix2 p (0 : Fin 1)) (ix1 p) (fun a => by
        match a with
        | ⟨0, _⟩ =>
          show p.val = if M = 1 then 0 else p.val
          split
          · have := p.isLt; omega
          · rfl)]

/-- The host's sum of a row from a scalar zero. -/
theorem hostRowSum {M N : ℕ} (X : FVec Ideal ⟨2, ![M, N]⟩ .f32)
    (h' : (⟨2, ![M, N]⟩ : Shape).ReducesTo [1] ⟨1, ![M]⟩) (hred : (⟨2, ![M, N]⟩ : Shape).Reduces [1] ⟨1, ![M]⟩)
    (hu : 0 < (⟨0, ![]⟩ : Shape).numel) (p : Fin M) :
    Host.reduceAdd X (constant (F := Ideal) ⟨0, ![]⟩ .f32 0x00000000#32) h' hu (ix1 p) = ∑ k : Fin N, X (ix2 p k) := by
  show Ideal.hostReduceAdd h' X (constant (F := Ideal) ⟨0, ![]⟩ .f32 0x00000000#32 (Shape.Idx.first hu)) (ix1 p) = _
  rw [Ideal.hostReduceAdd_single h' hred]
  show Ideal.ofBits .f32 0x00000000#32 + _ = _
  rw [Ideal.ofBits_zero_f32, zero_add]
  refine Finset.sum_congr rfl fun k _ => congrArg X (funext fun ax => Fin.ext ?_)
  match ax with
  | ⟨0, _⟩ => rfl
  | ⟨1, _⟩ => rfl

/-- The host's form of the row-wise log-softmax, over any vector `mx` holding each row's largest entry. -/
theorem hostLogSoftmax_of {M N : ℕ} (L : FVec Ideal ⟨2, ![M, N]⟩ .f32) (mx : FVec Ideal ⟨1, ![M]⟩ .f32)
    (hmx : ∀ p : Fin M, mx (ix1 p) = rowMax L p)
    (h' : (⟨2, ![M, N]⟩ : Shape).ReducesTo [1] ⟨1, ![M]⟩) (hred : (⟨2, ![M, N]⟩ : Shape).Reduces [1] ⟨1, ![M]⟩)
    (hu : 0 < (⟨0, ![]⟩ : Shape).numel)
    (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf L (broadcastInDim ⟨2, ![M, N]⟩ ![0, 1] hb2 (broadcastInDim ⟨2, ![M, 1]⟩ ![0] hb1 mx)))
      (broadcastInDim ⟨2, ![M, N]⟩ ![0, 1] hb2 (Host.log (broadcastInDim ⟨2, ![M, 1]⟩ ![0] hb1
          (Host.reduceAdd (Host.exp (subf L (broadcastInDim ⟨2, ![M, N]⟩ ![0, 1] hb2 (broadcastInDim ⟨2, ![M, 1]⟩ ![0] hb1 mx))))
            (constant (F := Ideal) ⟨0, ![]⟩ .f32 0x00000000#32) h' hu))))
      = lsm L := by
  funext i
  obtain ⟨p, q, rfl⟩ : ∃ (p : Fin M) (q : Fin N), i = ix2 p q := ⟨i 0, i 1, eq_ix2 i⟩
  show subf L (broadcastInDim ⟨2, ![M, N]⟩ ![0, 1] hb2 (broadcastInDim ⟨2, ![M, 1]⟩ ![0] hb1 mx)) (ix2 p q)
      - broadcastInDim ⟨2, ![M, N]⟩ ![0, 1] hb2 (Host.log (broadcastInDim ⟨2, ![M, 1]⟩ ![0] hb1
          (Host.reduceAdd (Host.exp (subf L (broadcastInDim ⟨2, ![M, N]⟩ ![0, 1] hb2 (broadcastInDim ⟨2, ![M, 1]⟩ ![0] hb1 mx))))
            (constant (F := Ideal) ⟨0, ![]⟩ .f32 0x00000000#32) h' hu))) (ix2 p q) = lsm L (ix2 p q)
  rw [hostShift_apply, hostLogCol_apply, hostRowSum _ h' hred hu, hmx, lsm_apply]
  refine congrArg (fun s => (L (ix2 p q) - rowMax L p) - Ideal.log s) (Finset.sum_congr rfl fun k _ => ?_)
  show Ideal.exp (subf L (broadcastInDim ⟨2, ![M, N]⟩ ![0, 1] hb2 (broadcastInDim ⟨2, ![M, 1]⟩ ![0] hb1 mx)) (ix2 p k)) = _
  rw [hostShift_apply, hmx]

/-- The host's form of the row-wise log-softmax. -/
theorem hostLogSoftmax {M N : ℕ} (L : FVec Ideal ⟨2, ![M, N]⟩ .f32)
    (h' : (⟨2, ![M, N]⟩ : Shape).ReducesTo [1] ⟨1, ![M]⟩) (hred : (⟨2, ![M, N]⟩ : Shape).Reduces [1] ⟨1, ![M]⟩)
    (hu : 0 < (⟨0, ![]⟩ : Shape).numel)
    (hb0 : (⟨0, ![]⟩ : Shape).BroadcastsInDim ⟨1, ![M]⟩ ![])
    (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf L (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) h' hu)))))
      (broadcastInDim ⟨2, ![M, N]⟩ ![0, 1] hb2 (Host.log (broadcastInDim ⟨2, ![M, 1]⟩ ![0] hb1
          (Host.reduceAdd (Host.exp (subf L (broadcastInDim ⟨2, ![M, N]⟩ ![0, 1] hb2 (broadcastInDim ⟨2, ![M, 1]⟩ ![0] hb1
              (maximumf (broadcastInDim ⟨1, ![M]⟩ ![] hb0 (constant (F := Ideal) ⟨0, ![]⟩ .f32 0xFF800000#32))
                (Host.reduce FloatOps.maximumf L (constant (F := Ideal) ⟨0, ![]⟩ .f32 0xFF800000#32) h' hu))))))
            (constant (F := Ideal) ⟨0, ![]⟩ .f32 0x00000000#32) h' hu))))
      = lsm L :=
  hostLogSoftmax_of L _ (fun p => by
    show max (broadcastInDim ⟨1, ![M]⟩ ![] hb0 (constant (F := Ideal) ⟨0, ![]⟩ .f32 0xFF800000#32) (ix1 p))
      (Host.reduce FloatOps.maximumf L (constant (F := Ideal) ⟨0, ![]⟩ .f32 0xFF800000#32) h' hu (ix1 p)) = rowMax L p
    rw [broadcastInDim_apply ![] hb0 (constant (F := Ideal) ⟨0, ![]⟩ .f32 0xFF800000#32) (ix1 p) ix0 (fun a => a.elim0), hostRowMax L h' hred hu p]
    exact max_negInf _) h' hred hu hb1 hb2

end Cert.RowSoftmax

end
-- ==== Proof.LibFusedDense.lean ====
/-
  Three fused dense stages on the extended reals, over rank-2 arrays of any extents, and their row blocks.

  `mlp x W₁ b₁ W₂ = max (x W₁ + b₁, 0) W₂`; `biasReluLin a b W = max (a + b, 0) W`;
  `biasReluLinLsm a b W b₂` is the row-wise log-softmax of `max (a + b, 0) W + b₂` (the biases are vectors added to every
  row). Row `p` of each depends on row `p` of its first operand only, so a block of consecutive rows computed from the
  same block of rows of the first operand is that block of rows of the whole (`*_block`). The vector unit's spelling
  (matrix products into zero accumulators, a bias cast to one row and broadcast to every row, a maximum with a zero
  splat) and the host's (dot products, a bias broadcast to one row and then to every row, a maximum with a broadcast
  scalar zero) are both these functions.
-/
import Idealize.ShloMosaic.PureOps.Ideal.Laws
import Idealize.ShloMosaic.Lib.ValueIdx
import Idealize.ShloMosaic.Lib.ValueLayout
import Idealize.ShloMosaic.Lib.Pipeline.Value
import proofs.«135534_j85761906966870_2_alg».proof.Proof.LibDense
import proofs.«135534_j85761906966870_2_alg».proof.Proof.LibRowSoftmax

noncomputable section

open scoped BigOperators

namespace Cert.FusedDense

open Idealize.ShloMosaic Idealize.ShloMosaic.ValueIdx Cert.Dense Cert.RowSoftmax

/-- `max (x W₁ + b₁, 0) W₂`. -/
def mlp {M K H N : ℕ} (x : Mat M K) (W1 : Mat K H) (b1 : Row H) (W2 : Mat H N) : Mat M N := mm (act x W1 (row b1)) W2

/-- `max (a + b, 0) W`. -/
def biasReluLin {M K N : ℕ} (a : Mat M K) (b : Row K) (W : Mat K N) : Mat M N := mm (reluBias a (row b)) W

/-- A one-row array added to every row. -/
def addRow {M N : ℕ} (X : Mat M N) (r : Mat 1 N) : Mat M N := fun i => X i + r (ix2 (0 : Fin 1) (c1 i))

theorem addRow_apply {M N : ℕ} (X : Mat M N) (r : Mat 1 N) (p : Fin M) (q : Fin N) :
    addRow X r (ix2 p q) = X (ix2 p q) + r (ix2 (0 : Fin 1) q) := rfl

/-- The row-wise log-softmax of `max (a + b, 0) W + b₂`. -/
def biasReluLinLsm {M K N : ℕ} (a : Mat M K) (b : Row K) (W : Mat K N) (b2 : Row N) : Mat M N :=
  lsm (addRow (biasReluLin a b W) (row b2))

theorem reluBias_apply {M N : ℕ} (X : Mat M N) (b : Mat 1 N) (p : Fin M) (q : Fin N) :
    reluBias X b (ix2 p q) = max (X (ix2 p q) + b (ix2 (0 : Fin 1) q)) 0 := rfl

/-! ## Rows depend on rows -/

theorem mlp_rows {M M' K H N : ℕ} (x : Mat M K) (x' : Mat M' K) (W1 : Mat K H) (b1 : Row H) (W2 : Mat H N)
    (p : Fin M) (p' : Fin M') (h : ∀ k, x' (ix2 p' k) = x (ix2 p k)) (q : Fin N) :
    mlp x' W1 b1 W2 (ix2 p' q) = mlp x W1 b1 W2 (ix2 p q) :=
  mm_act_rows x x' W1 (row b1) W2 p p' h q

theorem biasReluLin_rows {M M' K N : ℕ} (a : Mat M K) (a' : Mat M' K) (b : Row K) (W : Mat K N)
    (p : Fin M) (p' : Fin M') (h : ∀ k, a' (ix2 p' k) = a (ix2 p k)) (q : Fin N) :
    biasReluLin a' b W (ix2 p' q) = biasReluLin a b W (ix2 p q) :=
  mm_rows (reluBias a (row b)) (reluBias a' (row b)) W p p' (fun k => by rw [reluBias_apply, reluBias_apply, h k]) q

theorem biasReluLinLsm_rows {M M' K N : ℕ} (a : Mat M K) (a' : Mat M' K) (b : Row K) (W : Mat K N) (b2 : Row N)
    (p : Fin M) (p' : Fin M') (h : ∀ k, a' (ix2 p' k) = a (ix2 p k)) (q : Fin N) :
    biasReluLinLsm a' b W b2 (ix2 p' q) = biasReluLinLsm a b W b2 (ix2 p q) :=
  lsm_rows _ _ p p' (fun k => by rw [addRow_apply, addRow_apply, biasReluLin_rows a a' b W p p' h k]) q

/-! ## A block of consecutive rows -/

/-- The hypothesis shared by the three block lemmas: `x0` is rows `r·bs …` of `A`. -/
def IsRowBlock {M bs K : ℕ} (A : Mat M K) (x0 : Mat bs K) (r : ℕ) : Prop :=
  ∀ (y : (⟨2, ![bs, K]⟩ : Shape).Idx) (i : (⟨2, ![M, K]⟩ : Shape).Idx),
    (i 0).val = r * bs + (y 0).val → (i 1).val = (y 1).val → x0 y = A i

theorem rowBlock_of {M bs K N : ℕ} (A : Mat M K) (x0 : Mat bs K) (r : ℕ) (h0 : IsRowBlock A x0 r)
    (G : Mat M N) (g : Mat bs N)
    (hrows : ∀ (p : Fin M) (p' : Fin bs), (∀ k, x0 (ix2 p' k) = A (ix2 p k)) → ∀ q, g (ix2 p' q) = G (ix2 p q)) :
    IsRowBlock G g r := by
  intro y i hi0 hi1
  obtain ⟨p', q, rfl⟩ : ∃ (p' : Fin bs) (q : Fin N), y = ix2 p' q := ⟨y 0, y 1, eq_ix2 y⟩
  obtain ⟨p, q', rfl⟩ : ∃ (p : Fin M) (q' : Fin N), i = ix2 p q' := ⟨i 0, i 1, eq_ix2 i⟩
  obtain rfl : q' = q := Fin.ext hi1
  exact hrows p p' (fun k => h0 (ix2 p' k) (ix2 p k) hi0 rfl) q'

theorem mlp_block {M bs K H N : ℕ} (x : Mat M K) (x0 : Mat bs K) (W1 : Mat K H) (b1 : Row H) (W2 : Mat H N) (r : ℕ)
    (h0 : IsRowBlock x x0 r) : IsRowBlock (mlp x W1 b1 W2) (mlp x0 W1 b1 W2) r :=
  rowBlock_of x x0 r h0 _ _ fun p p' h q => mlp_rows x x0 W1 b1 W2 p p' h q

theorem biasReluLin_block {M bs K N : ℕ} (a : Mat M K) (x0 : Mat bs K) (b : Row K) (W : Mat K N) (r : ℕ)
    (h0 : IsRowBlock a x0 r) : IsRowBlock (biasReluLin a b W) (biasReluLin x0 b W) r :=
  rowBlock_of a x0 r h0 _ _ fun p p' h q => biasReluLin_rows a x0 b W p p' h q

theorem biasReluLinLsm_block {M bs K N : ℕ} (a : Mat M K) (x0 : Mat bs K) (b : Row K) (W : Mat K N) (b2 : Row N) (r : ℕ)
    (h0 : IsRowBlock a x0 r) : IsRowBlock (biasReluLinLsm a b W b2) (biasReluLinLsm x0 b W b2) r :=
  rowBlock_of a x0 r h0 _ _ fun p p' h q => biasReluLinLsm_rows a x0 b W b2 p p' h q

/-! ## The vector unit's forms -/

/-- A one-row array broadcast to every row and added. -/
theorem vecAddRow {M N : ℕ} (X : FVec Ideal ⟨2, ![M, N]⟩ .f32) (r : FVec Ideal ⟨2, ![1, N]⟩ .f32)
    (h : (⟨2, ![1, N]⟩ : Shape).Broadcasts ⟨2, ![M, N]⟩) : addf X (broadcastTo ⟨2, ![M, N]⟩ r h) = addRow X r := by
  funext i
  obtain ⟨p, q, rfl⟩ : ∃ (p : Fin M) (q : Fin N), i = ix2 p q := ⟨i 0, i 1, eq_ix2 i⟩
  show X (ix2 p q) + broadcastTo ⟨2, ![M, N]⟩ r h (ix2 p q) = _
  rw [broadcastTo_1b_ab_apply]
  rfl

/-- The host's form: a vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

end Cert.FusedDense

end
-- ==== Proof.Region0.lean ====
/-
  The first pipelined region as one function of the arrays it finds.

  The region walks ten blocks of 10000 rows. At block `t` the body reads rows `10000·t …` of the node features and the
  whole of two weight matrices and a bias vector, and stores `max (rows · W₁ + b₁, 0) · W₂` — rows `10000·t …` of `mlp` of
  the whole arrays, a row of the result depending on the same row of the features only. The ten blocks tile the result
  array, so after the region it holds `mlp` of the arrays the region was entered with.
-/
import proofs.«135534_j85761906966870_2_alg».proof.Proof.Gen.KernelIdeal.Frame
import proofs.«135534_j85761906966870_2_alg».proof.Proof.LibFusedDense
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.Dense Cert.FusedDense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is `max (x · W₁ + b₁, 0) · W₂` of the blocks it loads. -/
theorem pay_eq (x0 : Vec Ideal S10000x256 .f32) (x1 : Vec Ideal S256x256 .f32) (x2 : Vec Ideal S256 .f32) (x3 : Vec Ideal S256x256 .f32) :
    k0_pay1 x0 x1 x2 x3 = mlp x0 x1 x2 x3 := by
  unfold k0_pay1
  dsimp only
  rw [matmul_zero_eq_mm _ rfl rfl rfl rfl rfl rfl, matmul_zero_eq_mm _ rfl rfl rfl rfl rfl rfl, shapeCast_row, vecReluBias]
  rfl

/-- The block indices over the grid: the feature and result windows move with the point along the rows, the weights and
    the bias stay. -/
theorem idx : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 ∧ t.val < 10 :=
  (by decide +kernel : ∀ t : Fin grid0.N, _)

/-- Every block of rows is some point's. -/
theorem idx_onto : ∀ q : Fin 10, ∃ t : Fin cfg0.N, t.val = q.val :=
  (by decide +kernel : ∀ q : Fin 10, ∃ t : Fin grid0.N, t.val = q.val)

/-- The feature window's block at point `t` is rows `10000·t …` of the features. -/
theorem blk_0 (c : Dev nD) (t : Fin cfg0.N) : IsRowBlock (V c main_arg0 : Mat 100000 256) (iblk0 V c 0 t) t.val := by
  obtain ⟨e0, e1, -⟩ := idx t
  intro y i hi0 hi1
  show V c main_arg0 (((cfg0.win 0).blk t).view.emb y) = V c main_arg0 i
  refine congrArg (V c main_arg0) (funext fun a => Fin.ext ?_)
  match a with
  | ⟨0, _⟩ => show win0_0.index t (0 : Fin 2) * 10000 + 1 * (y 0).val = (i 0).val; rw [e0, hi0]; omega
  | ⟨1, _⟩ => show win0_0.index t (1 : Fin 2) * 256 + 1 * (y 1).val = (i 1).val; rw [e1, hi1]; omega

/-- The first weight window's block is the whole matrix. -/
theorem blk_1 (c : Dev nD) (t : Fin cfg0.N) : iblk0 V c 1 t = (V c main_arg3 : Mat 256 256) := by
  obtain ⟨-, -, e2, e3, -⟩ := idx t
  funext y
  show V c main_arg3 (((cfg0.win 1).blk t).view.emb y) = V c main_arg3 y
  refine congrArg (V c main_arg3) (funext fun a => Fin.ext ?_)
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The bias window's block is the whole bias. -/
theorem blk_2 (c : Dev nD) (t : Fin cfg0.N) : iblk0 V c 2 t = (V c main_arg4 : Row 256) := by
  obtain ⟨-, -, -, -, e4, -⟩ := idx t
  funext y
  show V c main_arg4 (((cfg0.win 2).blk t).view.emb y) = V c main_arg4 y
  refine congrArg (V c main_arg4) (funext fun a => Fin.ext ?_)
  match a with
  | ⟨0, _⟩ => show win0_2.index t (0 : Fin 1) * 256 + 1 * (y 0).val = (y 0).val; rw [e4]; omega

/-- The second weight window's block is the whole matrix. -/
theorem blk_3 (c : Dev nD) (t : Fin cfg0.N) : iblk0 V c 3 t = (V c main_arg5 : Mat 256 256) := by
  obtain ⟨-, -, -, -, -, e5, e6, -⟩ := idx t
  funext y
  show V c main_arg5 (((cfg0.win 3).blk t).view.emb y) = V c main_arg5 y
  refine congrArg (V c main_arg5) (funext fun a => Fin.ext ?_)
  match a with
  | ⟨0, _⟩ => show win0_3.index t (0 : Fin 2) * 256 + 1 * (y 0).val = (y 0).val; rw [e5]; omega
  | ⟨1, _⟩ => show win0_3.index t (1 : Fin 2) * 256 + 1 * (y 1).val = (y 1).val; rw [e6]; omega

/-- The whole-array function the region computes. -/
abbrev G (c : Dev nD) : Mat 100000 256 :=
  mlp (V c main_arg0 : Mat 100000 256) (V c main_arg3 : Mat 256 256) (V c main_arg4 : Row 256) (V c main_arg5 : Mat 256 256)

/-- What point `t` writes back is block `t` of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz2]
  simp only [View.ld_unit_zero (S := S10000x256) hz2, View.ld_unit_zero (S := S256) hz1, View.ld_unit_zero (S := S256x256) hz2]
  rw [pay_eq, blk_1, blk_2, blk_3]
  obtain ⟨-, -, -, -, -, -, -, e7, e8, -⟩ := idx t
  funext y
  show mlp (iblk0 V c 0 t) (V c main_arg3 : Mat 256 256) (V c main_arg4 : Row 256) (V c main_arg5 : Mat 256 256) y = G V c (((cfg0.win 4).blk t).view.emb y)
  refine mlp_block _ _ _ _ _ t.val (blk_0 V c t) y _ ?_ ?_
  · show win0_4.index t (0 : Fin 2) * 10000 + 1 * (y 0).val = t.val * 10000 + (y 0).val; rw [e7]; omega
  · show win0_4.index t (1 : Fin 2) * 256 + 1 * (y 1).val = (y 1).val; rw [e8]; omega

/-- An index of the result array is in point `t`'s block iff each coordinate is in the block's range on its axis. -/
theorem mem_blk (t : Fin cfg0.N) (i : S100000x256.Idx) :
    i ∈ ((cfg0.win 4).blk t).view.set ↔ ∀ a : Fin 2, win0_4.index t a * S10000x256.size a ≤ (i a).val ∧ (i a).val < win0_4.index t a * S10000x256.size a + S10000x256.size a := by
  show i ∈ ((View.whole main_v28).slice (win0_4.rect t)).set ↔ _
  rw [View.set_slice_whole, Rect.mem_set_unit]
  exact Iff.rfl

/-- The ten blocks tile the result array. -/
theorem cover (i : S100000x256.Idx) : ∃ t : Fin cfg0.N, (cfg0.win 4).flush t = true ∧ i ∈ ((cfg0.win 4).blk t).view.set := by
  have hi0 : (i 0).val < 100000 := (i 0).isLt
  have hi1 : (i 1).val < 256 := (i 1).isLt
  obtain ⟨t, ht⟩ := idx_onto ⟨(i 0).val / 10000, by omega⟩
  have ht' : t.val = (i 0).val / 10000 := ht
  obtain ⟨-, -, -, -, -, -, -, e7, e8, -⟩ := idx t
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; rw [e7, ht']; omega
  | ⟨1, _⟩ => show win0_4.index t (1 : Fin 2) * 256 ≤ (i 1).val ∧ (i 1).val < win0_4.index t (1 : Fin 2) * 256 + 256; rw [e8]; omega

/-- After the region its result array holds `max (x · W₁ + b₁, 0) · W₂` of the arrays it was entered with. -/
theorem final (c : Dev nD) : (dat0 V c).arrAt 4 cfg0.N = G V c :=
  (dat0 V c).arrAt_eq_of_cover 4 (G V c) (fun t _ => flushed_eq V c t) (cover)

end Cert.KernelIdeal.Region0

end
-- ==== Proof.Region1.lean ====
/-
  The second pipelined region as one function of the arrays it finds.

  The region walks ten blocks of 10000 rows. At block `t` the body reads rows `10000·t …` of the aggregated features,
  the whole bias vector and the whole weight matrix, and stores `max (rows + bias, 0) · W` — rows `10000·t …` of
  `biasReluLin` of the whole arrays, a row of the result depending on the same row of the features only. The ten blocks
  tile the result array, so after the region it holds `biasReluLin` of the arrays the region was entered with.
-/
import proofs.«135534_j85761906966870_2_alg».proof.Proof.Gen.KernelIdeal.Frame
import proofs.«135534_j85761906966870_2_alg».proof.Proof.LibFusedDense
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.Dense Cert.FusedDense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is `max (x + b, 0) · W` of the blocks it loads. -/
theorem pay_eq (x0 : Vec Ideal S10000x256 .f32) (x1 : Vec Ideal S256 .f32) (x2 : Vec Ideal S256x256 .f32) :
    k1_pay1 x0 x1 x2 = biasReluLin x0 x1 x2 := by
  unfold k1_pay1
  dsimp only
  rw [shapeCast_self, shapeCast_row, vecReluBias, matmul_zero_eq_mm _ rfl rfl rfl rfl rfl rfl]
  rfl

/-- The block indices over the grid: the feature and result windows move with the point along the rows, the bias and
    the weights stay. -/
theorem idx : ∀ t : Fin cfg1.N, win1_0.index t (0 : Fin 2) = t.val ∧ win1_0.index t (1 : Fin 2) = 0
    ∧ win1_1.index t (0 : Fin 1) = 0 ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Every block of rows is some point's. -/
theorem idx_onto : ∀ q : Fin 10, ∃ t : Fin cfg1.N, t.val = q.val :=
  (by decide +kernel : ∀ q : Fin 10, ∃ t : Fin grid1.N, t.val = q.val)

/-- The feature window's block at point `t` is rows `10000·t …` of the features. -/
theorem blk_0 (c : Dev nD) (t : Fin cfg1.N) : IsRowBlock (V c main_v45 : Mat 100000 256) (iblk1 V c 0 t) t.val := by
  obtain ⟨e0, e1, -⟩ := idx t
  intro y i hi0 hi1
  show V c main_v45 (((cfg1.win 0).blk t).view.emb y) = V c main_v45 i
  refine congrArg (V c main_v45) (funext fun a => Fin.ext ?_)
  match a with
  | ⟨0, _⟩ => show win1_0.index t (0 : Fin 2) * 10000 + 1 * (y 0).val = (i 0).val; rw [e0, hi0]; omega
  | ⟨1, _⟩ => show win1_0.index t (1 : Fin 2) * 256 + 1 * (y 1).val = (i 1).val; rw [e1, hi1]; omega

/-- The bias window's block is the whole bias. -/
theorem blk_1 (c : Dev nD) (t : Fin cfg1.N) : iblk1 V c 1 t = (V c main_arg6 : Row 256) := by
  obtain ⟨-, -, e2, -⟩ := idx t
  funext y
  show V c main_arg6 (((cfg1.win 1).blk t).view.emb y) = V c main_arg6 y
  refine congrArg (V c main_arg6) (funext fun a => Fin.ext ?_)
  match a with
  | ⟨0, _⟩ => show win1_1.index t (0 : Fin 1) * 256 + 1 * (y 0).val = (y 0).val; rw [e2]; omega

/-- The weight window's block is the whole weight matrix. -/
theorem blk_2 (c : Dev nD) (t : Fin cfg1.N) : iblk1 V c 2 t = (V c main_arg7 : Mat 256 256) := by
  obtain ⟨-, -, -, e3, e4, -⟩ := idx t
  funext y
  show V c main_arg7 (((cfg1.win 2).blk t).view.emb y) = V c main_arg7 y
  refine congrArg (V c main_arg7) (funext fun a => Fin.ext ?_)
  match a with
  | ⟨0, _⟩ => show win1_2.index t (0 : Fin 2) * 256 + 1 * (y 0).val = (y 0).val; rw [e3]; omega
  | ⟨1, _⟩ => show win1_2.index t (1 : Fin 2) * 256 + 1 * (y 1).val = (y 1).val; rw [e4]; omega

/-- The whole-array function the region computes. -/
abbrev G (c : Dev nD) : Mat 100000 256 :=
  biasReluLin (V c main_v45 : Mat 100000 256) (V c main_arg6 : Row 256) (V c main_arg7 : Mat 256 256)

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S10000x256) hz2, View.ld_unit_zero (S := S256) hz1, View.ld_unit_zero (S := S256x256) hz2]
  rw [pay_eq, blk_1, blk_2]
  obtain ⟨-, -, -, -, -, e5, e6, -⟩ := idx t
  funext y
  show biasReluLin (iblk1 V c 0 t) (V c main_arg6 : Row 256) (V c main_arg7 : Mat 256 256) y = G V c (((cfg1.win 3).blk t).view.emb y)
  refine biasReluLin_block _ _ _ _ t.val (blk_0 V c t) y _ ?_ ?_
  · show win1_3.index t (0 : Fin 2) * 10000 + 1 * (y 0).val = t.val * 10000 + (y 0).val; rw [e5]; omega
  · show win1_3.index t (1 : Fin 2) * 256 + 1 * (y 1).val = (y 1).val; rw [e6]; omega

/-- An index of the result array is in point `t`'s block iff each coordinate is in the block's range on its axis. -/
theorem mem_blk (t : Fin cfg1.N) (i : S100000x256.Idx) :
    i ∈ ((cfg1.win 3).blk t).view.set ↔ ∀ a : Fin 2, win1_3.index t a * S10000x256.size a ≤ (i a).val ∧ (i a).val < win1_3.index t a * S10000x256.size a + S10000x256.size a := by
  show i ∈ ((View.whole main_v46).slice (win1_3.rect t)).set ↔ _
  rw [View.set_slice_whole, Rect.mem_set_unit]
  exact Iff.rfl

/-- The ten blocks tile the result array. -/
theorem cover (i : S100000x256.Idx) : ∃ t : Fin cfg1.N, (cfg1.win 3).flush t = true ∧ i ∈ ((cfg1.win 3).blk t).view.set := by
  have hi0 : (i 0).val < 100000 := (i 0).isLt
  have hi1 : (i 1).val < 256 := (i 1).isLt
  obtain ⟨t, ht⟩ := idx_onto ⟨(i 0).val / 10000, by omega⟩
  have ht' : t.val = (i 0).val / 10000 := ht
  obtain ⟨-, -, -, -, -, e5, e6, -⟩ := idx t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; rw [e5, ht']; omega
  | ⟨1, _⟩ => show win1_3.index t (1 : Fin 2) * 256 ≤ (i 1).val ∧ (i 1).val < win1_3.index t (1 : Fin 2) * 256 + 256; rw [e6]; omega

/-- After the region its result array holds `max (features + bias, 0) · W` of the arrays it was entered with. -/
theorem final (c : Dev nD) : (dat1 V c).arrAt 3 cfg1.N = G V c :=
  (dat1 V c).arrAt_eq_of_cover 3 (G V c) (fun t _ => flushed_eq V c t) (cover)

end Cert.KernelIdeal.Region1

end
-- ==== Proof.Region2.lean ====
/-
  The third pipelined region as one function of the arrays it finds.

  The region walks ten blocks of 10000 rows. At block `t` the body reads rows `10000·t …` of the aggregated features and
  the whole of a bias vector, a weight matrix and a second bias vector, and stores the row-wise log-softmax of
  `max (rows + b, 0) · W + b₂` — rows `10000·t …` of `biasReluLinLsm` of the whole arrays: the largest entry of a row, the
  sum of its exponentials and so the whole row of the result depend on the same row of the features only. The ten blocks
  tile the result array, so after the region it holds `biasReluLinLsm` of the arrays the region was entered with.
-/
import proofs.«135534_j85761906966870_2_alg».proof.Proof.Gen.KernelIdeal.Frame
import proofs.«135534_j85761906966870_2_alg».proof.Proof.LibFusedDense
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Cert.Dense Cert.FusedDense Cert.RowSoftmax

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the row-wise log-softmax of `max (x + b, 0) · W + b₂` of the blocks it loads. -/
theorem pay_eq (x0 : Vec Ideal S10000x256 .f32) (x1 : Vec Ideal S256 .f32) (x2 : Vec Ideal S256x64 .f32) (x3 : Vec Ideal S64 .f32) :
    k2_pay1 x0 x1 x2 x3 = biasReluLinLsm x0 x1 x2 x3 := by
  unfold k2_pay1
  dsimp only
  rw [shapeCast_self, shapeCast_row, shapeCast_row, vecReluBias, matmul_zero_eq_mm _ rfl rfl rfl rfl rfl rfl, vecAddRow]
  exact vecLogSoftmax (addRow (mm (reluBias x0 (row x1)) x2) (row x3)) reduces_S10000x64_S10000 (.inl rfl) rfl rfl
    shapeCasts_S10000_S10000x1 broadcasts_S10000x1_S10000x64

/-- The block indices over the grid: the feature and result windows move with the point along the rows, the biases and
    the weights stay. -/
theorem idx : ∀ t : Fin cfg2.N, win2_0.index t (0 : Fin 2) = t.val ∧ win2_0.index t (1 : Fin 2) = 0
    ∧ win2_1.index t (0 : Fin 1) = 0 ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 ∧ t.val < 10 :=
  (by decide +kernel : ∀ t : Fin grid2.N, _)

/-- Every block of rows is some point's. -/
theorem idx_onto : ∀ q : Fin 10, ∃ t : Fin cfg2.N, t.val = q.val :=
  (by decide +kernel : ∀ q : Fin 10, ∃ t : Fin grid2.N, t.val = q.val)

/-- The feature window's block at point `t` is rows `10000·t …` of the features. -/
theorem blk_0 (c : Dev nD) (t : Fin cfg2.N) : IsRowBlock (V c main_v63 : Mat 100000 256) (iblk2 V c 0 t) t.val := by
  obtain ⟨e0, e1, -⟩ := idx t
  intro y i hi0 hi1
  show V c main_v63 (((cfg2.win 0).blk t).view.emb y) = V c main_v63 i
  refine congrArg (V c main_v63) (funext fun a => Fin.ext ?_)
  match a with
  | ⟨0, _⟩ => show win2_0.index t (0 : Fin 2) * 10000 + 1 * (y 0).val = (i 0).val; rw [e0, hi0]; omega
  | ⟨1, _⟩ => show win2_0.index t (1 : Fin 2) * 256 + 1 * (y 1).val = (i 1).val; rw [e1, hi1]; omega

/-- The first bias window's block is the whole bias. -/
theorem blk_1 (c : Dev nD) (t : Fin cfg2.N) : iblk2 V c 1 t = (V c main_arg8 : Row 256) := by
  obtain ⟨-, -, e2, -⟩ := idx t
  funext y
  show V c main_arg8 (((cfg2.win 1).blk t).view.emb y) = V c main_arg8 y
  refine congrArg (V c main_arg8) (funext fun a => Fin.ext ?_)
  match a with
  | ⟨0, _⟩ => show win2_1.index t (0 : Fin 1) * 256 + 1 * (y 0).val = (y 0).val; rw [e2]; omega

/-- The weight window's block is the whole weight matrix. -/
theorem blk_2 (c : Dev nD) (t : Fin cfg2.N) : iblk2 V c 2 t = (V c main_arg9 : Mat 256 64) := by
  obtain ⟨-, -, -, e3, e4, -⟩ := idx t
  funext y
  show V c main_arg9 (((cfg2.win 2).blk t).view.emb y) = V c main_arg9 y
  refine congrArg (V c main_arg9) (funext fun a => Fin.ext ?_)
  match a with
  | ⟨0, _⟩ => show win2_2.index t (0 : Fin 2) * 256 + 1 * (y 0).val = (y 0).val; rw [e3]; omega
  | ⟨1, _⟩ => show win2_2.index t (1 : Fin 2) * 64 + 1 * (y 1).val = (y 1).val; rw [e4]; omega

/-- The second bias window's block is the whole bias. -/
theorem blk_3 (c : Dev nD) (t : Fin cfg2.N) : iblk2 V c 3 t = (V c main_arg10 : Row 64) := by
  obtain ⟨-, -, -, -, -, e5, -⟩ := idx t
  funext y
  show V c main_arg10 (((cfg2.win 3).blk t).view.emb y) = V c main_arg10 y
  refine congrArg (V c main_arg10) (funext fun a => Fin.ext ?_)
  match a with
  | ⟨0, _⟩ => show win2_3.index t (0 : Fin 1) * 64 + 1 * (y 0).val = (y 0).val; rw [e5]; omega

/-- The whole-array function the region computes. -/
abbrev G (c : Dev nD) : Mat 100000 64 :=
  biasReluLinLsm (V c main_v63 : Mat 100000 256) (V c main_arg8 : Row 256) (V c main_arg9 : Mat 256 64) (V c main_arg10 : Row 64)

/-- What point `t` writes back is block `t` of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz2]
  simp only [View.ld_unit_zero (S := S10000x256) hz2, View.ld_unit_zero (S := S256) hz1, View.ld_unit_zero (S := S256x64) hz2, View.ld_unit_zero (S := S64) hz1]
  rw [pay_eq, blk_1, blk_2, blk_3]
  obtain ⟨-, -, -, -, -, -, e6, e7, -⟩ := idx t
  funext y
  show biasReluLinLsm (iblk2 V c 0 t) (V c main_arg8 : Row 256) (V c main_arg9 : Mat 256 64) (V c main_arg10 : Row 64) y = G V c (((cfg2.win 4).blk t).view.emb y)
  refine biasReluLinLsm_block _ _ _ _ _ t.val (blk_0 V c t) y _ ?_ ?_
  · show win2_4.index t (0 : Fin 2) * 10000 + 1 * (y 0).val = t.val * 10000 + (y 0).val; rw [e6]; omega
  · show win2_4.index t (1 : Fin 2) * 64 + 1 * (y 1).val = (y 1).val; rw [e7]; omega

/-- An index of the result array is in point `t`'s block iff each coordinate is in the block's range on its axis. -/
theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v64).slice (win2_4.rect t)).set ↔ _
  rw [View.set_slice_whole, Rect.mem_set_unit]
  exact Iff.rfl

/-- The ten blocks tile the result array. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto ⟨(i 0).val / 10000, by omega⟩
  have ht' : t.val = (i 0).val / 10000 := ht
  obtain ⟨-, -, -, -, -, -, e6, e7, -⟩ := idx t
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; rw [e6, ht']; omega
  | ⟨1, _⟩ => show win2_4.index t (1 : Fin 2) * 64 ≤ (i 1).val ∧ (i 1).val < win2_4.index t (1 : Fin 2) * 64 + 64; rw [e7]; omega

/-- After the region its result array holds the row-wise log-softmax of `max (features + b, 0) · W + b₂` of the arrays it
    was entered with. -/
theorem final (c : Dev nD) : (dat2 V c).arrAt 4 cfg2.N = G V c :=
  (dat2 V c).arrAt_eq_of_cover 4 (G V c) (fun t _ => flushed_eq V c t) (cover)

end Cert.KernelIdeal.Region2

end
-- ==== Proof.Spec.lean ====
/-
  The graph convolution's host arithmetic, as functions of arrays, and the whole network.

  An edge list is a 2 × 800000 integer array: row 0 the sources, row 1 the targets. A node index that is negative is taken
  from the end (the node count 100000 is added). `deg` is one plus the sum of the weights of the edges into a node;
  `norm` is the edge's weight times the inverse square roots of the degrees of its two ends; `invdeg` is the reciprocal
  of the degree. `agg h` sums, into each target node, `norm` times the source node's row of `h`, and adds the node's own
  row of `h` times `invdeg` (the self loop). These are written with the host operations themselves — scatter with
  addition, gather, broadcasts — at any float type, since both programs compute them by the same operations.
  `net` is the whole network on the extended reals: a two-layer perceptron, an aggregation, a bias-rectify-linear stage,
  a second aggregation, and a bias-rectify-linear stage followed by a row-wise log-softmax.
-/
import proofs.«135534_j85761906966870_2_alg».proof.ReferenceIdeal
import proofs.«135534_j85761906966870_2_alg».proof.Proof.Gen.ReferenceIdeal
import proofs.«135534_j85761906966870_2_alg».proof.Proof.LibFusedDense

noncomputable section

namespace Cert.Gcn

open Idealize.ShloMosaic Cert.ReferenceIdeal Cert.ReferenceIdeal.Gen Cert.Dense Cert.FusedDense

variable {F : FTy → Type} [FloatOps F]

/-- Row 0 of the edge list: the source of each edge. -/
def srcOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- Row 1 of the edge list: the target of each edge. -/
def dstOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- Node indices as a column, a negative index taken from the end. -/
def wrapCol (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 100000#32))) v)

/-- One plus the summed weight of the edges into each node. -/
def deg (dst : (⟨S800000, .i32⟩ : BufTy).Contents (Elt F)) (w : (⟨S800000, .f32⟩ : BufTy).Contents (Elt F)) :
    (⟨S100000, .f32⟩ : BufTy).Contents (Elt F) :=
  addf (broadcastInDim S100000 ![] bcast_S_S100000 (constant S_ .f32 0x3F800000#32))
    (Host.scatterAdd scatter_S100000_S800000x1_S800000_n_0_0_1
      (broadcastInDim S100000 ![] bcast_S_S100000 (constant S_ .f32 0x00000000#32))
      (broadcastInDim S800000x1 ![0] bcast_S800000_S800000x1_0 dst) w)

/-- Each edge's weight times the inverse square roots of the degrees of its source and of its target. -/
def norm (src dst : (⟨S800000, .i32⟩ : BufTy).Contents (Elt F)) (w : (⟨S800000, .f32⟩ : BufTy).Contents (Elt F)) :
    (⟨S800000, .f32⟩ : BufTy).Contents (Elt F) :=
  mulf (mulf (Host.gather gather_S100000_S800000x1_S800000_n_0_n_n_0_1_1 (Host.rsqrt (deg dst w)) (wrapCol src)) w)
    (Host.gather gather_S100000_S800000x1_S800000_n_0_n_n_0_1_1 (Host.rsqrt (deg dst w)) (wrapCol dst))

/-- The reciprocal of each node's degree. -/
def invdeg (dst : (⟨S800000, .i32⟩ : BufTy).Contents (Elt F)) (w : (⟨S800000, .f32⟩ : BufTy).Contents (Elt F)) :
    (⟨S100000, .f32⟩ : BufTy).Contents (Elt F) :=
  Host.divf (broadcastInDim S100000 ![] bcast_S_S100000 (constant S_ .f32 0x3F800000#32)) (deg dst w)

/-- The normalized sum over incoming edges of the source rows of `h`, plus the self loop. -/
def agg (h : (⟨S100000x256, .f32⟩ : BufTy).Contents (Elt F)) (nrm : (⟨S800000, .f32⟩ : BufTy).Contents (Elt F))
    (src dst : (⟨S800000, .i32⟩ : BufTy).Contents (Elt F)) (idg : (⟨S100000, .f32⟩ : BufTy).Contents (Elt F)) :
    (⟨S100000x256, .f32⟩ : BufTy).Contents (Elt F) :=
  addf
    (Host.scatterAdd scatter_S100000x256_S800000x1_S800000x256_1_0_0_1
      (broadcastInDim S100000x256 ![] bcast_S_S100000x256 (constant S_ .f32 0x00000000#32))
      (broadcastInDim S800000x1 ![0] bcast_S800000_S800000x1_0 dst)
      (mulf (broadcastInDim S800000x256 ![0, 1] bcast_S800000x1_S800000x256_0_1
              (broadcastInDim S800000x1 ![0] bcast_S800000_S800000x1_0 nrm))
        (Host.gather gather_S100000x256_S800000x1_S800000x256_1_0_n_n_0_1_1256 h (wrapCol src))))
    (mulf h (broadcastInDim S100000x256 ![0, 1] bcast_S100000x1_S100000x256_0_1
              (broadcastInDim S100000x1 ![0] bcast_S100000_S100000x1_0 idg)))

/-- The whole network on the extended reals. -/
def net (x : Mat 100000 256) (ei : (⟨S2x800000, .i32⟩ : BufTy).Contents (Elt Ideal)) (w : Row 800000)
    (W1 : Mat 256 256) (b1 : Row 256) (Wc0 : Mat 256 256) (bc0 : Row 256) (Wc1 : Mat 256 256) (bc1 : Row 256)
    (W2 : Mat 256 64) (b2 : Row 64) : Mat 100000 64 :=
  biasReluLinLsm
    (agg (biasReluLin (agg (mlp x W1 b1 Wc0) (norm (srcOf ei) (dstOf ei) w) (srcOf ei) (dstOf ei) (invdeg (dstOf ei) w)) bc0 Wc1)
      (norm (srcOf ei) (dstOf ei) w) (srcOf ei) (dstOf ei) (invdeg (dstOf ei) w))
    bc1 W2 b2

end Cert.Gcn

end
-- ==== Proof.KernelValue.lean ====
/-
  The kernel program's result as the network of its arguments.

  The program's buffers are followed through its six segments. A stretch of host operations leaves every buffer it does
  not write as it was and puts in each buffer it writes its operation's value of the buffers it reads; a region leaves
  every buffer that is not one of its arrays as it was and its result array at the stage's function of the arrays it
  was entered with. The first stretch computes, from the edge list and the edge weights, the source and target indices,
  the per-edge normalization and the reciprocal degrees, which the two later stretches read unchanged. Reading the result
  buffer back through the three regions and the two aggregating stretches gives the network `net` of the arguments.
-/
import proofs.«135534_j85761906966870_2_alg».proof.Proof.KernelRun
import proofs.«135534_j85761906966870_2_alg».proof.Proof.Region0
import proofs.«135534_j85761906966870_2_alg».proof.Proof.Region1
import proofs.«135534_j85761906966870_2_alg».proof.Proof.Region2
import proofs.«135534_j85761906966870_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Dense Cert.FusedDense Cert.Gcn

variable (m : (ℓ : Loc nD τ sig) → Buf (Elt Ideal) ℓ) (ρ : Dev nD → PrngReg)

/-- A stretch of host operations leaves a buffer none of its operations writes as it was. -/
local macro "stretch_keeps" ops:ident : term => `(StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments, unchanged up to the segment that reads them -/

theorem W1_arg0 (c : Dev nD) : W1 m ρ c (Proc.devRef .tc main_arg0) = m ((c : Thread nD τ).loc main_arg0) :=
  (stretch_keeps hostOps0 : W1 m ρ c (Proc.devRef .tc main_arg0) = W0 m ρ c (Proc.devRef .tc main_arg0)).trans rfl
theorem W1_arg3 (c : Dev nD) : W1 m ρ c (Proc.devRef .tc main_arg3) = m ((c : Thread nD τ).loc main_arg3) :=
  (stretch_keeps hostOps0 : W1 m ρ c (Proc.devRef .tc main_arg3) = W0 m ρ c (Proc.devRef .tc main_arg3)).trans rfl
theorem W1_arg4 (c : Dev nD) : W1 m ρ c (Proc.devRef .tc main_arg4) = m ((c : Thread nD τ).loc main_arg4) :=
  (stretch_keeps hostOps0 : W1 m ρ c (Proc.devRef .tc main_arg4) = W0 m ρ c (Proc.devRef .tc main_arg4)).trans rfl
theorem W1_arg5 (c : Dev nD) : W1 m ρ c (Proc.devRef .tc main_arg5) = m ((c : Thread nD τ).loc main_arg5) :=
  (stretch_keeps hostOps0 : W1 m ρ c (Proc.devRef .tc main_arg5) = W0 m ρ c (Proc.devRef .tc main_arg5)).trans rfl
theorem W1_arg6 (c : Dev nD) : W1 m ρ c (Proc.devRef .tc main_arg6) = m ((c : Thread nD τ).loc main_arg6) :=
  (stretch_keeps hostOps0 : W1 m ρ c (Proc.devRef .tc main_arg6) = W0 m ρ c (Proc.devRef .tc main_arg6)).trans rfl
theorem W1_arg7 (c : Dev nD) : W1 m ρ c (Proc.devRef .tc main_arg7) = m ((c : Thread nD τ).loc main_arg7) :=
  (stretch_keeps hostOps0 : W1 m ρ c (Proc.devRef .tc main_arg7) = W0 m ρ c (Proc.devRef .tc main_arg7)).trans rfl
theorem W1_arg8 (c : Dev nD) : W1 m ρ c (Proc.devRef .tc main_arg8) = m ((c : Thread nD τ).loc main_arg8) :=
  (stretch_keeps hostOps0 : W1 m ρ c (Proc.devRef .tc main_arg8) = W0 m ρ c (Proc.devRef .tc main_arg8)).trans rfl
theorem W1_arg9 (c : Dev nD) : W1 m ρ c (Proc.devRef .tc main_arg9) = m ((c : Thread nD τ).loc main_arg9) :=
  (stretch_keeps hostOps0 : W1 m ρ c (Proc.devRef .tc main_arg9) = W0 m ρ c (Proc.devRef .tc main_arg9)).trans rfl
theorem W1_arg10 (c : Dev nD) : W1 m ρ c (Proc.devRef .tc main_arg10) = m ((c : Thread nD τ).loc main_arg10) :=
  (stretch_keeps hostOps0 : W1 m ρ c (Proc.devRef .tc main_arg10) = W0 m ρ c (Proc.devRef .tc main_arg10)).trans rfl
theorem W3_arg6 (c : Dev nD) : W3 m ρ c (Proc.devRef .tc main_arg6) = m ((c : Thread nD τ).loc main_arg6) :=
  (stretch_keeps hostOps1 : W3 m ρ c (Proc.devRef .tc main_arg6) = W2 m ρ c (Proc.devRef .tc main_arg6)).trans
    ((W2_of_ne m ρ c main_arg6 (by decide)).trans (W1_arg6 m ρ c))
theorem W3_arg7 (c : Dev nD) : W3 m ρ c (Proc.devRef .tc main_arg7) = m ((c : Thread nD τ).loc main_arg7) :=
  (stretch_keeps hostOps1 : W3 m ρ c (Proc.devRef .tc main_arg7) = W2 m ρ c (Proc.devRef .tc main_arg7)).trans
    ((W2_of_ne m ρ c main_arg7 (by decide)).trans (W1_arg7 m ρ c))
theorem W3_arg8 (c : Dev nD) : W3 m ρ c (Proc.devRef .tc main_arg8) = m ((c : Thread nD τ).loc main_arg8) :=
  (stretch_keeps hostOps1 : W3 m ρ c (Proc.devRef .tc main_arg8) = W2 m ρ c (Proc.devRef .tc main_arg8)).trans
    ((W2_of_ne m ρ c main_arg8 (by decide)).trans (W1_arg8 m ρ c))
theorem W3_arg9 (c : Dev nD) : W3 m ρ c (Proc.devRef .tc main_arg9) = m ((c : Thread nD τ).loc main_arg9) :=
  (stretch_keeps hostOps1 : W3 m ρ c (Proc.devRef .tc main_arg9) = W2 m ρ c (Proc.devRef .tc main_arg9)).trans
    ((W2_of_ne m ρ c main_arg9 (by decide)).trans (W1_arg9 m ρ c))
theorem W3_arg10 (c : Dev nD) : W3 m ρ c (Proc.devRef .tc main_arg10) = m ((c : Thread nD τ).loc main_arg10) :=
  (stretch_keeps hostOps1 : W3 m ρ c (Proc.devRef .tc main_arg10) = W2 m ρ c (Proc.devRef .tc main_arg10)).trans
    ((W2_of_ne m ρ c main_arg10 (by decide)).trans (W1_arg10 m ρ c))
theorem W5_arg8 (c : Dev nD) : W5 m ρ c (Proc.devRef .tc main_arg8) = m ((c : Thread nD τ).loc main_arg8) :=
  (stretch_keeps hostOps2 : W5 m ρ c (Proc.devRef .tc main_arg8) = W4 m ρ c (Proc.devRef .tc main_arg8)).trans
    ((W4_of_ne m ρ c main_arg8 (by decide)).trans (W3_arg8 m ρ c))
theorem W5_arg9 (c : Dev nD) : W5 m ρ c (Proc.devRef .tc main_arg9) = m ((c : Thread nD τ).loc main_arg9) :=
  (stretch_keeps hostOps2 : W5 m ρ c (Proc.devRef .tc main_arg9) = W4 m ρ c (Proc.devRef .tc main_arg9)).trans
    ((W4_of_ne m ρ c main_arg9 (by decide)).trans (W3_arg9 m ρ c))
theorem W5_arg10 (c : Dev nD) : W5 m ρ c (Proc.devRef .tc main_arg10) = m ((c : Thread nD τ).loc main_arg10) :=
  (stretch_keeps hostOps2 : W5 m ρ c (Proc.devRef .tc main_arg10) = W4 m ρ c (Proc.devRef .tc main_arg10)).trans
    ((W4_of_ne m ρ c main_arg10 (by decide)).trans (W3_arg10 m ρ c))

/-! ## What the first stretch computes from the edge list and the edge weights -/

/-- The source index of each edge. -/
abbrev src (c : Dev nD) := srcOf (m ((c : Thread nD τ).loc main_arg1))
/-- The target index of each edge. -/
abbrev dst (c : Dev nD) := dstOf (m ((c : Thread nD τ).loc main_arg1))
/-- The per-edge normalization. -/
abbrev nrm (c : Dev nD) := norm (src m c) (dst m c) (m ((c : Thread nD τ).loc main_arg2))
/-- The reciprocal degrees. -/
abbrev idg (c : Dev nD) := invdeg (dst m c) (m ((c : Thread nD τ).loc main_arg2))

theorem W1_v1 (c : Dev nD) : W1 m ρ c (Proc.devRef .tc main_v1) = src m c := by
  show StableHlo.after hostOps0 (W0 m ρ c) (Proc.devRef .tc main_v1) = _
  dsimp only [hostOps0]
  after_results_simp
  rfl
theorem W1_v3 (c : Dev nD) : W1 m ρ c (Proc.devRef .tc main_v3) = dst m c := by
  show StableHlo.after hostOps0 (W0 m ρ c) (Proc.devRef .tc main_v3) = _
  dsimp only [hostOps0]
  after_results_simp
  rfl
theorem W1_v25 (c : Dev nD) : W1 m ρ c (Proc.devRef .tc main_v25) = nrm m c := by
  show StableHlo.after hostOps0 (W0 m ρ c) (Proc.devRef .tc main_v25) = _
  dsimp only [hostOps0]
  after_results_simp
  rfl
theorem W1_v27 (c : Dev nD) : W1 m ρ c (Proc.devRef .tc main_v27) = idg m c := by
  show StableHlo.after hostOps0 (W0 m ρ c) (Proc.devRef .tc main_v27) = _
  dsimp only [hostOps0]
  after_results_simp
  rfl

/-! ## … which the later segments read unchanged -/

theorem W2_v1 (c : Dev nD) : W2 m ρ c (Proc.devRef .tc main_v1) = src m c :=
  (W2_of_ne m ρ c main_v1 (by decide)).trans (W1_v1 m ρ c)
theorem W4_v1 (c : Dev nD) : W4 m ρ c (Proc.devRef .tc main_v1) = src m c :=
  (W4_of_ne m ρ c main_v1 (by decide)).trans
    ((stretch_keeps hostOps1 : W3 m ρ c (Proc.devRef .tc main_v1) = W2 m ρ c (Proc.devRef .tc main_v1)).trans (W2_v1 m ρ c))
theorem W2_v3 (c : Dev nD) : W2 m ρ c (Proc.devRef .tc main_v3) = dst m c :=
  (W2_of_ne m ρ c main_v3 (by decide)).trans (W1_v3 m ρ c)
theorem W4_v3 (c : Dev nD) : W4 m ρ c (Proc.devRef .tc main_v3) = dst m c :=
  (W4_of_ne m ρ c main_v3 (by decide)).trans
    ((stretch_keeps hostOps1 : W3 m ρ c (Proc.devRef .tc main_v3) = W2 m ρ c (Proc.devRef .tc main_v3)).trans (W2_v3 m ρ c))
theorem W2_v25 (c : Dev nD) : W2 m ρ c (Proc.devRef .tc main_v25) = nrm m c :=
  (W2_of_ne m ρ c main_v25 (by decide)).trans (W1_v25 m ρ c)
theorem W4_v25 (c : Dev nD) : W4 m ρ c (Proc.devRef .tc main_v25) = nrm m c :=
  (W4_of_ne m ρ c main_v25 (by decide)).trans
    ((stretch_keeps hostOps1 : W3 m ρ c (Proc.devRef .tc main_v25) = W2 m ρ c (Proc.devRef .tc main_v25)).trans (W2_v25 m ρ c))
theorem W2_v27 (c : Dev nD) : W2 m ρ c (Proc.devRef .tc main_v27) = idg m c :=
  (W2_of_ne m ρ c main_v27 (by decide)).trans (W1_v27 m ρ c)
theorem W4_v27 (c : Dev nD) : W4 m ρ c (Proc.devRef .tc main_v27) = idg m c :=
  (W4_of_ne m ρ c main_v27 (by decide)).trans
    ((stretch_keeps hostOps1 : W3 m ρ c (Proc.devRef .tc main_v27) = W2 m ρ c (Proc.devRef .tc main_v27)).trans (W2_v27 m ρ c))

/-! ## The three stages and the two aggregations -/

/-- The first region's result: the two-layer perceptron of the node features. -/
abbrev h0 (c : Dev nD) : Mat 100000 256 :=
  mlp (m ((c : Thread nD τ).loc main_arg0)) (m ((c : Thread nD τ).loc main_arg3)) (m ((c : Thread nD τ).loc main_arg4)) (m ((c : Thread nD τ).loc main_arg5))
/-- The first aggregation. -/
abbrev a0 (c : Dev nD) := agg (h0 m c) (nrm m c) (src m c) (dst m c) (idg m c)
/-- The second region's result. -/
abbrev h1 (c : Dev nD) : Mat 100000 256 := biasReluLin (a0 m c) (m ((c : Thread nD τ).loc main_arg6)) (m ((c : Thread nD τ).loc main_arg7))
/-- The second aggregation. -/
abbrev a1 (c : Dev nD) := agg (h1 m c) (nrm m c) (src m c) (dst m c) (idg m c)

theorem W2_v28 (c : Dev nD) : W2 m ρ c (Proc.devRef .tc main_v28) = h0 m c := by
  refine (W2_arr m ρ c 4).trans ?_
  rw [Region0.final]
  show mlp (W1 m ρ c (Proc.devRef .tc main_arg0) : Mat 100000 256) (W1 m ρ c (Proc.devRef .tc main_arg3) : Mat 256 256)
      (W1 m ρ c (Proc.devRef .tc main_arg4) : Row 256) (W1 m ρ c (Proc.devRef .tc main_arg5) : Mat 256 256) = _
  rw [W1_arg0 m ρ c, W1_arg3 m ρ c, W1_arg4 m ρ c, W1_arg5 m ρ c]

theorem W3_v45 (c : Dev nD) : W3 m ρ c (Proc.devRef .tc main_v45) = a0 m c := by
  have e : W3 m ρ c (Proc.devRef .tc main_v45) = agg (W2 m ρ c (Proc.devRef .tc main_v28)) (W2 m ρ c (Proc.devRef .tc main_v25))
      (W2 m ρ c (Proc.devRef .tc main_v1)) (W2 m ρ c (Proc.devRef .tc main_v3)) (W2 m ρ c (Proc.devRef .tc main_v27)) := by
    show StableHlo.after hostOps1 (W2 m ρ c) (Proc.devRef .tc main_v45) = _
    dsimp only [hostOps1]
    after_results_simp
    rfl
  rw [e, W2_v28 m ρ c, W2_v25 m ρ c, W2_v1 m ρ c, W2_v3 m ρ c, W2_v27 m ρ c]

theorem W4_v46 (c : Dev nD) : W4 m ρ c (Proc.devRef .tc main_v46) = h1 m c := by
  refine (W4_arr m ρ c 3).trans ?_
  rw [Region1.final]
  show biasReluLin (W3 m ρ c (Proc.devRef .tc main_v45) : Mat 100000 256) (W3 m ρ c (Proc.devRef .tc main_arg6) : Row 256)
      (W3 m ρ c (Proc.devRef .tc main_arg7) : Mat 256 256) = _
  rw [W3_v45 m ρ c, W3_arg6 m ρ c, W3_arg7 m ρ c]

theorem W5_v63 (c : Dev nD) : W5 m ρ c (Proc.devRef .tc main_v63) = a1 m c := by
  have e : W5 m ρ c (Proc.devRef .tc main_v63) = agg (W4 m ρ c (Proc.devRef .tc main_v46)) (W4 m ρ c (Proc.devRef .tc main_v25))
      (W4 m ρ c (Proc.devRef .tc main_v1)) (W4 m ρ c (Proc.devRef .tc main_v3)) (W4 m ρ c (Proc.devRef .tc main_v27)) := by
    show StableHlo.after hostOps2 (W4 m ρ c) (Proc.devRef .tc main_v63) = _
    dsimp only [hostOps2]
    after_results_simp
    rfl
  rw [e, W4_v46 m ρ c, W4_v25 m ρ c, W4_v1 m ρ c, W4_v3 m ρ c, W4_v27 m ρ c]

/-- The result buffer after the last region holds the network of the arguments. -/
theorem W6_v64 (c : Dev nD) : W6 m ρ c (Proc.devRef .tc main_v64)
    = net (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) := by
  refine (W6_arr m ρ c 4).trans ?_
  rw [Region2.final]
  show biasReluLinLsm (W5 m ρ c (Proc.devRef .tc main_v63) : Mat 100000 256) (W5 m ρ c (Proc.devRef .tc main_arg8) : Row 256)
      (W5 m ρ c (Proc.devRef .tc main_arg9) : Mat 256 64) (W5 m ρ c (Proc.devRef .tc main_arg10) : Row 64) = _
  rw [W5_v63 m ρ c, W5_arg8 m ρ c, W5_arg9 m ρ c, W5_arg10 m ρ c]
  rfl

/-- The kernel program's run: the result array at the network of the arguments, the arguments unchanged. -/
theorem run_net : θ_run defs (onTc (τ := τ) (main (F := Ideal))) ⟨m, fun _ => 0, ρ⟩ (fun r => ∀ c : Dev nD,
      r.2.mem ((c.tc : Thread nD τ).loc main_v64)
        = net (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)) (m ((c : Thread nD τ).loc main_arg8)) (m ((c : Thread nD τ).loc main_arg9))
            (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W6_v64 m ρ c), (h c).2⟩) (run_out m ρ)

end Cert.KernelIdeal.Hand

end
-- ==== Proof.RefValue.lean ====
/-
  The reference program's result as the network of its arguments.

  The reference is one straight line of 146 host operations. Its result is read in eight consecutive segments, so that a
  value several later operations use is named once: the edge indices and the perceptron; the degrees and the per-edge
  normalization; the first aggregation; the second dense stage; the degrees and the normalization again; the second
  aggregation; the logits; the row-wise log-softmax. Within a segment each buffer it writes is its operation's value
  of the buffers it reads, and every other buffer is as the segment found it. On the extended reals the host's dot products,
  broadcast biases, maxima with zero and reductions are the dense stages and the log-softmax of the network `net`.
-/
import proofs.«135534_j85761906966870_2_alg».proof.Proof.RefRunP
import proofs.«135534_j85761906966870_2_alg».proof.Proof.Spec
import Idealize.ShloMosaic.Lib.StableHlo.Run

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open Cert.Dense Cert.FusedDense Cert.RowSoftmax Cert.Gcn

variable {F : FTy → Type} [FloatOps F]

/-- Operations run one list after another are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A list of operations run as its first `n` and then the rest. -/
theorem after_split (l : List (HloOp τ sig (Elt F))) (n : Nat) (V : Valuation τ sig (Elt F)) :
    after l V = after (l.drop n) (after (l.take n) V) := by
  rw [← after_append, List.take_append_drop]

/-! ## The host's spellings of the dense stages -/

/-- The host's two-layer perceptron. -/
def hostMlp (x : (⟨S100000x256, .f32⟩ : BufTy).Contents (Elt F)) (W1 : (⟨S256x256, .f32⟩ : BufTy).Contents (Elt F))
    (b1 : (⟨S256, .f32⟩ : BufTy).Contents (Elt F)) (W2 : (⟨S256x256, .f32⟩ : BufTy).Contents (Elt F)) :
    (⟨S100000x256, .f32⟩ : BufTy).Contents (Elt F) :=
  Host.dotGeneral dot_S100000x256_S256x256_S100000x256_1_0_0_1_n_n none
    (maximumf (addf (Host.dotGeneral dot_S100000x256_S256x256_S100000x256_1_0_0_1_n_n none x W1)
        (broadcastInDim S100000x256 ![0, 1] bcast_S1x256_S100000x256_0_1 (broadcastInDim S1x256 ![1] bcast_S256_S1x256_1 b1)))
      (broadcastInDim S100000x256 ![] bcast_S_S100000x256 (constant S_ .f32 0x00000000#32))) W2

/-- The host's bias, rectifier and matrix product. -/
def hostBiasReluLin (a : (⟨S100000x256, .f32⟩ : BufTy).Contents (Elt F)) (b : (⟨S256, .f32⟩ : BufTy).Contents (Elt F))
    (W : (⟨S256x256, .f32⟩ : BufTy).Contents (Elt F)) : (⟨S100000x256, .f32⟩ : BufTy).Contents (Elt F) :=
  Host.dotGeneral dot_S100000x256_S256x256_S100000x256_1_0_0_1_n_n none
    (maximumf (addf a
        (broadcastInDim S100000x256 ![0, 1] bcast_S1x256_S100000x256_0_1 (broadcastInDim S1x256 ![1] bcast_S256_S1x256_1 b)))
      (broadcastInDim S100000x256 ![] bcast_S_S100000x256 (constant S_ .f32 0x00000000#32))) W

/-- The host's logits: bias, rectifier, matrix product onto the classes, second bias. -/
def hostLogits (a : (⟨S100000x256, .f32⟩ : BufTy).Contents (Elt F)) (b : (⟨S256, .f32⟩ : BufTy).Contents (Elt F))
    (W : (⟨S256x64, .f32⟩ : BufTy).Contents (Elt F)) (b2 : (⟨S64, .f32⟩ : BufTy).Contents (Elt F)) :
    (⟨S100000x64, .f32⟩ : BufTy).Contents (Elt F) :=
  addf (Host.dotGeneral dot_S100000x256_S256x64_S100000x64_1_0_0_1_n_n none
      (maximumf (addf a
          (broadcastInDim S100000x256 ![0, 1] bcast_S1x256_S100000x256_0_1 (broadcastInDim S1x256 ![1] bcast_S256_S1x256_1 b)))
        (broadcastInDim S100000x256 ![] bcast_S_S100000x256 (constant S_ .f32 0x00000000#32))) W)
    (broadcastInDim S100000x64 ![0, 1] bcast_S1x64_S100000x64_0_1 (broadcastInDim S1x64 ![1] bcast_S64_S1x64_1 b2))

/-- The host's row-wise log-softmax. -/
def hostLsm (L : (⟨S100000x64, .f32⟩ : BufTy).Contents (Elt F)) : (⟨S100000x64, .f32⟩ : BufTy).Contents (Elt F) :=
  subf (subf L (broadcastInDim S100000x64 ![0, 1] bcast_S100000x1_S100000x64_0_1 (broadcastInDim S100000x1 ![0] bcast_S100000_S100000x1_0
        (maximumf (broadcastInDim S100000 ![] bcast_S_S100000 (constant S_ .f32 0xFF800000#32))
          (Host.reduce FloatOps.maximumf L (constant S_ .f32 0xFF800000#32) reducesTo_S100000x64_S100000_d1 h_S_)))))
    (broadcastInDim S100000x64 ![0, 1] bcast_S100000x1_S100000x64_0_1 (Host.log (broadcastInDim S100000x1 ![0] bcast_S100000_S100000x1_0
        (Host.reduceAdd (Host.exp (subf L (broadcastInDim S100000x64 ![0, 1] bcast_S100000x1_S100000x64_0_1 (broadcastInDim S100000x1 ![0] bcast_S100000_S100000x1_0
            (maximumf (broadcastInDim S100000 ![] bcast_S_S100000 (constant S_ .f32 0xFF800000#32))
              (Host.reduce FloatOps.maximumf L (constant S_ .f32 0xFF800000#32) reducesTo_S100000x64_S100000_d1 h_S_))))))
          (constant S_ .f32 0x00000000#32) reducesTo_S100000x64_S100000_d1 h_S_))))

theorem hostMlp_eq (x : Mat 100000 256) (W1 : Mat 256 256) (b1 : Row 256) (W2 : Mat 256 256) :
    hostMlp (F := Ideal) x W1 b1 W2 = mlp x W1 b1 W2 := by
  unfold hostMlp
  rw [hostDot_eq_mm _ rfl rfl rfl rfl rfl rfl, hostDot_eq_mm _ rfl rfl rfl rfl rfl rfl, hostReluBias]
  rfl

theorem hostBiasReluLin_eq (a : Mat 100000 256) (b : Row 256) (W : Mat 256 256) :
    hostBiasReluLin (F := Ideal) a b W = biasReluLin a b W := by
  unfold hostBiasReluLin
  rw [hostDot_eq_mm _ rfl rfl rfl rfl rfl rfl, hostReluBias]
  rfl

theorem hostLogits_eq (a : Mat 100000 256) (b : Row 256) (W : Mat 256 64) (b2 : Row 64) :
    hostLogits (F := Ideal) a b W b2 = addRow (biasReluLin a b W) (row b2) := by
  unfold hostLogits
  rw [hostDot_eq_mm _ rfl rfl rfl rfl rfl rfl, hostReluBias, hostAddRow]
  rfl

theorem hostLsm_eq (L : Mat 100000 64) : hostLsm (F := Ideal) L = lsm L :=
  hostLogSoftmax L reducesTo_S100000x64_S100000_d1 (by decide) h_S_ bcast_S_S100000 bcast_S100000_S100000x1_0
    bcast_S100000x1_S100000x64_0_1

/-! ## The eight segments -/

/-- Segment: the edge indices and the two-layer perceptron. -/
def sA : List (HloOp τ sig (Elt Ideal)) := (ops (F := Ideal)).take 12
/-- Segment: the degrees and the per-edge normalization. -/
def sB : List (HloOp τ sig (Elt Ideal)) := ((ops (F := Ideal)).drop 12).take 28
/-- Segment: the first aggregation. -/
def sC : List (HloOp τ sig (Elt Ideal)) := (((ops (F := Ideal)).drop 12).drop 28).take 23
/-- Segment: the second dense stage. -/
def sC2 : List (HloOp τ sig (Elt Ideal)) := ((((ops (F := Ideal)).drop 12).drop 28).drop 23).take 7
/-- Segment: the degrees and the normalization, computed again. -/
def sD : List (HloOp τ sig (Elt Ideal)) := (((((ops (F := Ideal)).drop 12).drop 28).drop 23).drop 7).take 28
/-- Segment: the second aggregation. -/
def sE : List (HloOp τ sig (Elt Ideal)) := ((((((ops (F := Ideal)).drop 12).drop 28).drop 23).drop 7).drop 28).take 23
/-- Segment: the logits. -/
def sE2 : List (HloOp τ sig (Elt Ideal)) := (((((((ops (F := Ideal)).drop 12).drop 28).drop 23).drop 7).drop 28).drop 23).take 10
/-- Segment: the row-wise log-softmax. -/
def sF : List (HloOp τ sig (Elt Ideal)) := ((((((((ops (F := Ideal)).drop 12).drop 28).drop 23).drop 7).drop 28).drop 23).drop 10)

theorem ops_split (V : Valuation τ sig (Elt Ideal)) :
    after (ops (F := Ideal)) V = after sF (after sE2 (after sE (after sD (after sC2 (after sC (after sB (after sA V))))))) := by
  unfold sF sE2 sE sD sC2 sC sB sA
  rw [after_split (ops (F := Ideal)) 12 V,
    after_split ((ops (F := Ideal)).drop 12) 28,
    after_split (((ops (F := Ideal)).drop 12).drop 28) 23,
    after_split ((((ops (F := Ideal)).drop 12).drop 28).drop 23) 7,
    after_split (((((ops (F := Ideal)).drop 12).drop 28).drop 23).drop 7) 28,
    after_split ((((((ops (F := Ideal)).drop 12).drop 28).drop 23).drop 7).drop 28) 23,
    after_split (((((((ops (F := Ideal)).drop 12).drop 28).drop 23).drop 7).drop 28).drop 23) 10]

/-- A segment written out as its operations. -/
local macro "seg_eval" s:ident : tactic =>
  `(tactic| simp only [$s:ident, ops, List.drop_succ_cons, List.drop_zero, List.take_succ_cons, List.take_zero])

/-- The scalar one broadcast to every node. -/
abbrev ones : (⟨S100000, .f32⟩ : BufTy).Contents (Elt Ideal) :=
  broadcastInDim S100000 ![] bcast_S_S100000 (constant (F := Ideal) S_ .f32 0x3F800000#32)

/-- A value moved to a buffer's own type and back is the value. -/
theorem ofBuf_toBuf {T : BufTy} (x : TRef sig T) (v : T.Contents (Elt Ideal)) : x.ofBuf (x.toBuf v) = v := by
  simp only [TRef.ofBuf, TRef.toBuf, cast_cast, cast_eq]

/-! ### The edge indices and the perceptron -/

theorem sA_v1 (V : Valuation τ sig (Elt Ideal)) : after sA V (Proc.devRef .tc main_v1)
    = srcOf (V (Proc.devRef .tc main_arg1)) := by
  seg_eval sA
  after_results_simp
  rfl
theorem sA_v3 (V : Valuation τ sig (Elt Ideal)) : after sA V (Proc.devRef .tc main_v3)
    = dstOf (V (Proc.devRef .tc main_arg1)) := by
  seg_eval sA
  after_results_simp
  rfl
theorem sA_v9 (V : Valuation τ sig (Elt Ideal)) : after sA V (Proc.devRef .tc main_v9)
    = hostMlp (V (Proc.devRef .tc main_arg0)) (V (Proc.devRef .tc main_arg3)) (V (Proc.devRef .tc main_arg4)) (V (Proc.devRef .tc main_arg5)) := by
  seg_eval sA
  after_results_simp
  rfl
theorem sA_arg2 (V : Valuation τ sig (Elt Ideal)) : after sA V (Proc.devRef .tc main_arg2) = V (Proc.devRef .tc main_arg2) := by
  seg_eval sA
  after_results_simp <;> rfl
theorem sA_arg6 (V : Valuation τ sig (Elt Ideal)) : after sA V (Proc.devRef .tc main_arg6) = V (Proc.devRef .tc main_arg6) := by
  seg_eval sA
  after_results_simp <;> rfl
theorem sA_arg7 (V : Valuation τ sig (Elt Ideal)) : after sA V (Proc.devRef .tc main_arg7) = V (Proc.devRef .tc main_arg7) := by
  seg_eval sA
  after_results_simp <;> rfl
theorem sA_arg8 (V : Valuation τ sig (Elt Ideal)) : after sA V (Proc.devRef .tc main_arg8) = V (Proc.devRef .tc main_arg8) := by
  seg_eval sA
  after_results_simp <;> rfl
theorem sA_arg9 (V : Valuation τ sig (Elt Ideal)) : after sA V (Proc.devRef .tc main_arg9) = V (Proc.devRef .tc main_arg9) := by
  seg_eval sA
  after_results_simp <;> rfl
theorem sA_arg10 (V : Valuation τ sig (Elt Ideal)) : after sA V (Proc.devRef .tc main_arg10) = V (Proc.devRef .tc main_arg10) := by
  seg_eval sA
  after_results_simp <;> rfl

/-! ### The degrees and the normalization -/

theorem sB_v14 (V : Valuation τ sig (Elt Ideal)) : after sB V (Proc.devRef .tc main_v14)
    = deg (V (Proc.devRef .tc main_v3)) (V (Proc.devRef .tc main_arg2)) := by
  seg_eval sB
  after_results_simp
  rfl
theorem sB_v31 (V : Valuation τ sig (Elt Ideal)) : after sB V (Proc.devRef .tc main_v31)
    = norm (V (Proc.devRef .tc main_v1)) (V (Proc.devRef .tc main_v3)) (V (Proc.devRef .tc main_arg2)) := by
  seg_eval sB
  after_results_simp
  rfl
theorem sB_v1 (V : Valuation τ sig (Elt Ideal)) : after sB V (Proc.devRef .tc main_v1) = V (Proc.devRef .tc main_v1) := by
  seg_eval sB
  after_results_simp <;> rfl
theorem sB_v3 (V : Valuation τ sig (Elt Ideal)) : after sB V (Proc.devRef .tc main_v3) = V (Proc.devRef .tc main_v3) := by
  seg_eval sB
  after_results_simp <;> rfl
theorem sB_v9 (V : Valuation τ sig (Elt Ideal)) : after sB V (Proc.devRef .tc main_v9) = V (Proc.devRef .tc main_v9) := by
  seg_eval sB
  after_results_simp <;> rfl
theorem sB_arg2 (V : Valuation τ sig (Elt Ideal)) : after sB V (Proc.devRef .tc main_arg2) = V (Proc.devRef .tc main_arg2) := by
  seg_eval sB
  after_results_simp <;> rfl
theorem sB_arg6 (V : Valuation τ sig (Elt Ideal)) : after sB V (Proc.devRef .tc main_arg6) = V (Proc.devRef .tc main_arg6) := by
  seg_eval sB
  after_results_simp <;> rfl
theorem sB_arg7 (V : Valuation τ sig (Elt Ideal)) : after sB V (Proc.devRef .tc main_arg7) = V (Proc.devRef .tc main_arg7) := by
  seg_eval sB
  after_results_simp <;> rfl
theorem sB_arg8 (V : Valuation τ sig (Elt Ideal)) : after sB V (Proc.devRef .tc main_arg8) = V (Proc.devRef .tc main_arg8) := by
  seg_eval sB
  after_results_simp <;> rfl
theorem sB_arg9 (V : Valuation τ sig (Elt Ideal)) : after sB V (Proc.devRef .tc main_arg9) = V (Proc.devRef .tc main_arg9) := by
  seg_eval sB
  after_results_simp <;> rfl
theorem sB_arg10 (V : Valuation τ sig (Elt Ideal)) : after sB V (Proc.devRef .tc main_arg10) = V (Proc.devRef .tc main_arg10) := by
  seg_eval sB
  after_results_simp <;> rfl

/-! ### The first aggregation -/

theorem sC_v50 (V : Valuation τ sig (Elt Ideal)) : after sC V (Proc.devRef .tc main_v50)
    = agg (V (Proc.devRef .tc main_v9)) (V (Proc.devRef .tc main_v31)) (V (Proc.devRef .tc main_v1)) (V (Proc.devRef .tc main_v3)) (Host.divf (F := Ideal) (s := S100000) (φ := .f32) ones (V (Proc.devRef .tc main_v14))) := by
  seg_eval sC
  after_results_simp
  rfl
theorem sC_v1 (V : Valuation τ sig (Elt Ideal)) : after sC V (Proc.devRef .tc main_v1) = V (Proc.devRef .tc main_v1) := by
  seg_eval sC
  after_results_simp <;> rfl
theorem sC_v3 (V : Valuation τ sig (Elt Ideal)) : after sC V (Proc.devRef .tc main_v3) = V (Proc.devRef .tc main_v3) := by
  seg_eval sC
  after_results_simp <;> rfl
theorem sC_arg2 (V : Valuation τ sig (Elt Ideal)) : after sC V (Proc.devRef .tc main_arg2) = V (Proc.devRef .tc main_arg2) := by
  seg_eval sC
  after_results_simp <;> rfl
theorem sC_arg6 (V : Valuation τ sig (Elt Ideal)) : after sC V (Proc.devRef .tc main_arg6) = V (Proc.devRef .tc main_arg6) := by
  seg_eval sC
  after_results_simp <;> rfl
theorem sC_arg7 (V : Valuation τ sig (Elt Ideal)) : after sC V (Proc.devRef .tc main_arg7) = V (Proc.devRef .tc main_arg7) := by
  seg_eval sC
  after_results_simp <;> rfl
theorem sC_arg8 (V : Valuation τ sig (Elt Ideal)) : after sC V (Proc.devRef .tc main_arg8) = V (Proc.devRef .tc main_arg8) := by
  seg_eval sC
  after_results_simp <;> rfl
theorem sC_arg9 (V : Valuation τ sig (Elt Ideal)) : after sC V (Proc.devRef .tc main_arg9) = V (Proc.devRef .tc main_arg9) := by
  seg_eval sC
  after_results_simp <;> rfl
theorem sC_arg10 (V : Valuation τ sig (Elt Ideal)) : after sC V (Proc.devRef .tc main_arg10) = V (Proc.devRef .tc main_arg10) := by
  seg_eval sC
  after_results_simp <;> rfl

/-! ### The second dense stage -/

theorem sC2_v55 (V : Valuation τ sig (Elt Ideal)) : after sC2 V (Proc.devRef .tc main_v55)
    = hostBiasReluLin (V (Proc.devRef .tc main_v50)) (V (Proc.devRef .tc main_arg6)) (V (Proc.devRef .tc main_arg7)) := by
  seg_eval sC2
  after_results_simp
  simp only [ofBuf_toBuf]
  rw [(fun _ _ _ _ => rfl : ∀ p q s (X : (⟨S100000x256, .f32⟩ : BufTy).Contents (Elt Ideal)), (TRef.of (T := ⟨S100000x256, .f32⟩) main_v54 p q s).toBuf X = X),
    (fun _ _ _ _ => rfl : ∀ p q s (X : (⟨S100000x256, .f32⟩ : BufTy).Contents (Elt Ideal)), (TRef.of (T := ⟨S100000x256, .f32⟩) main_v53 p q s).ofBuf X = X)]
  rfl
theorem sC2_v1 (V : Valuation τ sig (Elt Ideal)) : after sC2 V (Proc.devRef .tc main_v1) = V (Proc.devRef .tc main_v1) := by
  seg_eval sC2
  after_results_simp <;> rfl
theorem sC2_v3 (V : Valuation τ sig (Elt Ideal)) : after sC2 V (Proc.devRef .tc main_v3) = V (Proc.devRef .tc main_v3) := by
  seg_eval sC2
  after_results_simp <;> rfl
theorem sC2_arg2 (V : Valuation τ sig (Elt Ideal)) : after sC2 V (Proc.devRef .tc main_arg2) = V (Proc.devRef .tc main_arg2) := by
  seg_eval sC2
  after_results_simp <;> rfl
theorem sC2_arg8 (V : Valuation τ sig (Elt Ideal)) : after sC2 V (Proc.devRef .tc main_arg8) = V (Proc.devRef .tc main_arg8) := by
  seg_eval sC2
  after_results_simp <;> rfl
theorem sC2_arg9 (V : Valuation τ sig (Elt Ideal)) : after sC2 V (Proc.devRef .tc main_arg9) = V (Proc.devRef .tc main_arg9) := by
  seg_eval sC2
  after_results_simp <;> rfl
theorem sC2_arg10 (V : Valuation τ sig (Elt Ideal)) : after sC2 V (Proc.devRef .tc main_arg10) = V (Proc.devRef .tc main_arg10) := by
  seg_eval sC2
  after_results_simp <;> rfl

/-! ### The degrees and the normalization again -/

theorem sD_v60 (V : Valuation τ sig (Elt Ideal)) : after sD V (Proc.devRef .tc main_v60)
    = deg (V (Proc.devRef .tc main_v3)) (V (Proc.devRef .tc main_arg2)) := by
  seg_eval sD
  after_results_simp
  rfl
theorem sD_v77 (V : Valuation τ sig (Elt Ideal)) : after sD V (Proc.devRef .tc main_v77)
    = norm (V (Proc.devRef .tc main_v1)) (V (Proc.devRef .tc main_v3)) (V (Proc.devRef .tc main_arg2)) := by
  seg_eval sD
  after_results_simp
  rfl
theorem sD_v1 (V : Valuation τ sig (Elt Ideal)) : after sD V (Proc.devRef .tc main_v1) = V (Proc.devRef .tc main_v1) := by
  seg_eval sD
  after_results_simp <;> rfl
theorem sD_v3 (V : Valuation τ sig (Elt Ideal)) : after sD V (Proc.devRef .tc main_v3) = V (Proc.devRef .tc main_v3) := by
  seg_eval sD
  after_results_simp <;> rfl
theorem sD_v55 (V : Valuation τ sig (Elt Ideal)) : after sD V (Proc.devRef .tc main_v55) = V (Proc.devRef .tc main_v55) := by
  seg_eval sD
  after_results_simp <;> rfl
theorem sD_arg8 (V : Valuation τ sig (Elt Ideal)) : after sD V (Proc.devRef .tc main_arg8) = V (Proc.devRef .tc main_arg8) := by
  seg_eval sD
  after_results_simp <;> rfl
theorem sD_arg9 (V : Valuation τ sig (Elt Ideal)) : after sD V (Proc.devRef .tc main_arg9) = V (Proc.devRef .tc main_arg9) := by
  seg_eval sD
  after_results_simp <;> rfl
theorem sD_arg10 (V : Valuation τ sig (Elt Ideal)) : after sD V (Proc.devRef .tc main_arg10) = V (Proc.devRef .tc main_arg10) := by
  seg_eval sD
  after_results_simp <;> rfl

/-! ### The second aggregation -/

theorem sE_v96 (V : Valuation τ sig (Elt Ideal)) : after sE V (Proc.devRef .tc main_v96)
    = agg (V (Proc.devRef .tc main_v55)) (V (Proc.devRef .tc main_v77)) (V (Proc.devRef .tc main_v1)) (V (Proc.devRef .tc main_v3)) (Host.divf (F := Ideal) (s := S100000) (φ := .f32) ones (V (Proc.devRef .tc main_v60))) := by
  seg_eval sE
  after_results_simp
  rfl
theorem sE_arg8 (V : Valuation τ sig (Elt Ideal)) : after sE V (Proc.devRef .tc main_arg8) = V (Proc.devRef .tc main_arg8) := by
  seg_eval sE
  after_results_simp <;> rfl
theorem sE_arg9 (V : Valuation τ sig (Elt Ideal)) : after sE V (Proc.devRef .tc main_arg9) = V (Proc.devRef .tc main_arg9) := by
  seg_eval sE
  after_results_simp <;> rfl
theorem sE_arg10 (V : Valuation τ sig (Elt Ideal)) : after sE V (Proc.devRef .tc main_arg10) = V (Proc.devRef .tc main_arg10) := by
  seg_eval sE
  after_results_simp <;> rfl

/-! ### The logits and the log-softmax -/

theorem sE2_v104 (V : Valuation τ sig (Elt Ideal)) : after sE2 V (Proc.devRef .tc main_v104)
    = hostLogits (V (Proc.devRef .tc main_v96)) (V (Proc.devRef .tc main_arg8)) (V (Proc.devRef .tc main_arg9)) (V (Proc.devRef .tc main_arg10)) := by
  seg_eval sE2
  after_results_simp
  simp only [ofBuf_toBuf]
  rw [(fun _ _ _ _ => rfl : ∀ p q s (X : (⟨S100000x256, .f32⟩ : BufTy).Contents (Elt Ideal)), (TRef.of (T := ⟨S100000x256, .f32⟩) main_v100 p q s).toBuf X = X),
    (fun _ _ _ _ => rfl : ∀ p q s (X : (⟨S100000x256, .f32⟩ : BufTy).Contents (Elt Ideal)), (TRef.of (T := ⟨S100000x256, .f32⟩) main_v99 p q s).ofBuf X = X)]
  rfl
theorem sF_v105 (V : Valuation τ sig (Elt Ideal)) : after sF V (Proc.devRef .tc main_v105)
    = hostLsm (V (Proc.devRef .tc main_v104)) := by
  seg_eval sF
  after_results
  simp only [ofBuf_toBuf]
  rw [(fun _ _ _ _ => rfl : ∀ p q s (X : (⟨S100000x64, .f32⟩ : BufTy).Contents (Elt Ideal)), (TRef.of (T := ⟨S100000x64, .f32⟩) main_v105 p q s).toBuf X = X),
    (fun _ _ _ _ => rfl : ∀ p q s (X : (⟨S100000x64, .f32⟩ : BufTy).Contents (Elt Ideal)), (TRef.of (T := ⟨S100000x64, .f32⟩) main_v104 p q s).ofBuf X = X)]
  rfl

/-! ## The result -/

variable (m : (ℓ : Loc nD τ sig) → Buf (Elt Ideal) ℓ)

/-- The reference's result buffer holds the network of the arguments. -/
theorem result_eq (c : Dev nD) : after (ops (F := Ideal)) (launchContents m c) (Proc.devRef .tc main_v105)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) := by
  rw [ops_split]
  rw [sF_v105, sE2_v104, sE_v96, sE_arg8, sE_arg9, sE_arg10, sD_v55, sD_v77, sD_v1, sD_v3,
    sD_v60, sD_arg8, sD_arg9, sD_arg10, sC2_v55, sC2_v1, sC2_v3, sC2_arg2, sC2_arg8, sC2_arg9,
    sC2_arg10, sC_v50, sC_arg6, sC_arg7, sC_v1, sC_v3, sC_arg2, sC_arg8, sC_arg9, sC_arg10,
    sB_v9, sB_v31, sB_v1, sB_v3, sB_v14, sB_arg6, sB_arg7, sB_arg2, sB_arg8, sB_arg9,
    sB_arg10, sA_v9, sA_v1, sA_v3, sA_arg2, sA_arg6, sA_arg7, sA_arg8, sA_arg9, sA_arg10]
  rw [hostMlp_eq, hostBiasReluLin_eq, hostLogits_eq, hostLsm_eq]
  rfl

/-- The reference program's run: the result array at the network of the arguments, the arguments unchanged. -/
theorem run_net (ρ : Dev nD → PrngReg) : θ_run defs (onTc (τ := τ) (main (F := Ideal))) ⟨m, fun _ => 0, ρ⟩ (fun r => ∀ c : Dev nD,
      r.2.mem ((c.tc : Thread nD τ).loc main_v105)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m c), (h c).2⟩) (ValueP.run (F := Ideal) m ρ)

end Cert.ReferenceIdeal.RefValue

end
-- ==== Proof.lean ====
/-
  A three-stage graph convolution network — a two-layer perceptron, two normalized neighbourhood aggregations each
  followed by a bias, a rectifier and a matrix product, and a row-wise log-softmax — computed by a kernel program of
  three pipelined regions among host operations, against a reference of host operations only.

  On the extended reals both programs compute `Cert.Gcn.net` of their arguments. The kernel's regions each walk ten
  blocks of 10000 rows; a row of a dense stage, and of the log-softmax, depends on the same row of the stage's input
  only, so the blocks tile the stage's whole-array function. The aggregation (degrees, per-edge normalization, gather,
  scatter with addition, self loop) is the same host operations in both programs; the kernel computes the normalization
  once where the reference computes it per layer, from the same arrays. No operation was rewritten by the idealization,
  and no law that needs finite inputs is used.
-/
import proofs.«135534_j85761906966870_2_alg».proof.Defs
import proofs.«135534_j85761906966870_2_alg».proof.Proof.Gen.Kernel
import proofs.«135534_j85761906966870_2_alg».proof.Proof.Gen.Kernel.Frame
import proofs.«135534_j85761906966870_2_alg».proof.Proof.Gen.KernelIdeal
import proofs.«135534_j85761906966870_2_alg».proof.Proof.Gen.KernelIdeal.Frame
import proofs.«135534_j85761906966870_2_alg».proof.Proof.Gen.ReferenceIdeal
import proofs.«135534_j85761906966870_2_alg».proof.Proof.Gen.Pre_finite_inputs
import proofs.«135534_j85761906966870_2_alg».proof.Proof.KernelValue
import proofs.«135534_j85761906966870_2_alg».proof.Proof.RefValue
import Idealize.ShloMosaic.Adequacy
import Idealize.ShloMosaic.Init

noncomputable section

namespace Cert.Proof

open Idealize.ShloMosaic Idealize.SL.Sem

/-- The word-level kernel program runs, without a fault, and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨_, Cert.KernelIdeal.Hand.run_net m ρ, ?_⟩
  refine (θ_run Cert.ReferenceIdeal.defs _ _).mono (fun _ h c => ⟨(h c).1.trans ?_, (h c).2⟩)
    (Cert.ReferenceIdeal.RefValue.run_net m' ρ')
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
